-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part4 {F : FTy → Type} [FloatOps F] (main_arg14 : FVec F S4096 .f32) (main_arg15 : FVec F S4096 .f32) (main_arg16 : FVec F S4096 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096 .f32 := Host.absf main_arg15
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  main_v83

def fn_part3 {F : FTy → Type} [FloatOps F] (main_arg11 : FVec F S4096x4096 .f32) (main_arg12 : FVec F S4096x4096 .f32) (main_arg13 : FVec F S4096 .f32) (main_arg14 : FVec F S4096 .f32) (main_arg15 : FVec F S4096 .f32) (main_arg16 : FVec F S4096 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096x4096 .f32 := Host.absf main_arg12
  let main_cst_22 : FVec F S_ .f32 := constant S_ .f32 0x7F800000#32
  let main_v60 : FVec F S4096x4096 .f32 := broadcastInDim S4096x4096 ![] bcast_S_S4096x4096 main_cst_22
  let main_v61 : IVec S4096x4096 1 := cmpf .olt main_v59 main_v60
  let main_c_23 : IVec S_ 1 := constantI S_ 1 1#1
  let main_v62 : IVec S_ 1 := (fun x v => Host.reduce IntOp.andi x v reducesTo_S4096x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_arg14 main_arg15 main_arg16 main_v63 main_v67

def fn_part2 {F : FTy → Type} [FloatOps F] (main_arg7 : FVec F S4096x4096 .f32) (main_arg8 : FVec F S4096x4096 .f32) (main_arg9 : FVec F S4096x4096 .f32) (main_arg10 : FVec F S4096x4096 .f32) (main_arg11 : FVec F S4096x4096 .f32) (main_arg12 : FVec F S4096x4096 .f32) (main_arg13 : FVec F S4096 .f32) (main_arg14 : FVec F S4096 .f32) (main_arg15 : FVec F S4096 .f32) (main_arg16 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_arg14 main_arg15 main_arg16 main_v48 main_v49 main_v50

def fn_part1 {F : FTy → Type} [FloatOps F] (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_arg10 : FVec F S4096x4096 .f32) (main_arg11 : FVec F S4096x4096 .f32) (main_arg12 : FVec F S4096x4096 .f32) (main_arg13 : FVec F S4096 .f32) (main_arg14 : FVec F S4096 .f32) (main_arg15 : FVec F S4096 .f32) (main_arg16 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_arg10 : FVec F S4096x4096 .f32) (main_arg11 : FVec F S4096x4096 .f32) (main_arg12 : FVec F S4096x4096 .f32) (main_arg13 : FVec F S4096 .f32) (main_arg14 : FVec F S4096 .f32) (main_arg15 : FVec F S4096 .f32) (main_arg16 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x4096 : Shape := ⟨2, ![4096, 4096]⟩
abbrev S4096 : Shape := ⟨1, ![4096]⟩
abbrev S4096x8192 : Shape := ⟨2, ![4096, 8192]⟩
abbrev S8192x4096 : Shape := ⟨2, ![8192, 4096]⟩
abbrev S1x4096 : Shape := ⟨2, ![1, 4096]⟩
abbrev S1024x512 : Shape := ⟨2, ![1024, 512]⟩
abbrev S512x256 : Shape := ⟨2, ![512, 256]⟩
abbrev S1x256 : Shape := ⟨2, ![1, 256]⟩
abbrev S1024x256 : Shape := ⟨2, ![1024, 256]⟩

abbrev nBuf : Space → Nat
  | .hbm => 41
  | .vmem => 32
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096x4096, .bf16⟩
  | .hbm, ⟨18, _⟩ => ⟨S4096x4096, .f32⟩
  | .hbm, ⟨19, _⟩ => ⟨S4096x4096, .bf16⟩
  | .hbm, ⟨20, _⟩ => ⟨S4096x8192, .bf16⟩
  | .hbm, ⟨21, _⟩ => ⟨S4096x4096, .bf16⟩
  | .hbm, ⟨22, _⟩ => ⟨S4096x4096, .bf16⟩
  | .hbm, ⟨23, _⟩ => ⟨S8192x4096, .bf16⟩
  | .hbm, ⟨24, _⟩ => ⟨S4096x4096, .bf16⟩
  | .hbm, ⟨25, _⟩ => ⟨S4096x4096, .bf16⟩
  | .hbm, ⟨26, _⟩ => ⟨S8192x4096, .bf16⟩
  | .hbm, ⟨27, _⟩ => ⟨S4096x4096, .bf16⟩
  | .hbm, ⟨28, _⟩ => ⟨S4096x4096, .bf16⟩
  | .hbm, ⟨29, _⟩ => ⟨S8192x4096, .bf16⟩
  | .hbm, ⟨30, _⟩ => ⟨S4096x4096, .bf16⟩
  | .hbm, ⟨31, _⟩ => ⟨S4096x4096, .bf16⟩
  | .hbm, ⟨32, _⟩ => ⟨S8192x4096, .bf16⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v20_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 16, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

class Facts₀ : Prop where
  bitsLt_bf16_f32 : FTy.bits .bf16 < FTy.bits .f32
  transposes_S4096x4096_S4096x4096_1_0 : S4096x4096.Transposes [1, 0] S4096x4096
  concatenates_S4096x4096_S4096x4096_S4096x8192_d1 : Shape.Concatenates [S4096x4096, S4096x4096] S4096x8192 1
  concatenates_S4096x4096_S4096x4096_S8192x4096_d0 : Shape.Concatenates [S4096x4096, S4096x4096] S8192x4096 0
  shapeCasts_S4096_S1x4096 : S4096.ShapeCasts S1x4096
  inb_S1024x256_S1024x256_0_0 : ∀ a, (![0, 0] : Fin 2 → Nat) a + S1024x256.size a ≤ S1024x256.size a
  h_S1024x256 : 0 < S1024x256.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x8192.size a
  hwx0_0 : ∀ i : grid0.Coords, EltTy.bits .bf16 = 32 ∨ (Rect.block (s := S4096x8192) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x4096.size a
  hwx0_1 : ∀ i : grid0.Coords, EltTy.bits .bf16 = 32 ∨ (Rect.block (s := S8192x4096) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x4096.size a
  hwx0_2 : ∀ i : grid0.Coords, EltTy.bits .bf16 = 32 ∨ (Rect.block (s := S8192x4096) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x4096.size a
  hwx0_3 : ∀ i : grid0.Coords, EltTy.bits .bf16 = 32 ∨ (Rect.block (s := S8192x4096) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x4096.size a
  hwx0_4 : ∀ i : grid0.Coords, EltTy.bits .bf16 = 32 ∨ (Rect.block (s := S8192x4096) S512x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x4096.size a
  hwx0_5 : ∀ i : grid0.Coords, EltTy.bits .f32 = 32 ∨ (Rect.block (s := S1x4096) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x4096.size a
  hwx0_6 : ∀ i : grid0.Coords, EltTy.bits .f32 = 32 ∨ (Rect.block (s := S1x4096) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x4096.size a
  hwx0_7 : ∀ i : grid0.Coords, EltTy.bits .f32 = 32 ∨ (Rect.block (s := S1x4096) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x4096.size a
  hwx0_8 : ∀ i : grid0.Coords, EltTy.bits .f32 = 32 ∨ (Rect.block (s := S1x4096) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S4096x4096.size a
  hwx0_9 : ∀ i : grid0.Coords, EltTy.bits .f32 = 32 ∨ (Rect.block (s := S4096x4096) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S4096x4096.size a
  hwx0_10 : ∀ i : grid0.Coords, EltTy.bits .f32 = 32 ∨ (Rect.block (s := S4096x4096) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S4096x4096.size a
  hwx0_11 : ∀ i : grid0.Coords, EltTy.bits .f32 = 32 ∨ (Rect.block (s := S4096x4096) S1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S4096x4096.size a
  hwx0_12 : ∀ i : grid0.Coords, EltTy.bits .f32 = 32 ∨ (Rect.block (s := S4096x4096) S1024x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S4096x4096.size a
  hwx0_13 : ∀ i : grid0.Coords, EltTy.bits .f32 = 32 ∨ (Rect.block (s := S4096x4096) S1024x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x256.size a ≤ S4096x4096.size a
  hwx0_14 : ∀ i : grid0.Coords, EltTy.bits .f32 = 32 ∨ (Rect.block (s := S4096x4096) S1024x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S4096x4096.size a
  hwx0_15 : ∀ i : grid0.Coords, EltTy.bits .f32 = 32 ∨ (Rect.block (s := S4096x4096) S1024x256.size (cc0_transform_15 i) (hinb0_15 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1024x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg3) S1024x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg4) S1024x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_0) S1024x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v20_1) S1024x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v20_2) S1024x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v20_3) S1024x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S1x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_v35 : Ref sig .tc := ⟨.hbm, 53, rfl⟩
abbrev main_cst_0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Found.lean ====
/-
  What the body leaves in each of its four output buffers, as a value, in each of its three situations.

  The four output blocks double as accumulators over the sixteen steps of a run along the contraction axis. At the
  first step (situation A) the body stores a zero block into each buffer, reads it back, adds its block product and stores
  the sum; at a middle step (B) it adds its block product to what the buffer held; at the last step (C) it does the same
  and then reads the four finished sums back, applies the cell's formulas with the bias rows and the old states, and
  overwrites the four buffers with the results. Each buffer's last store covers the whole block, so the buffer ends
  with that store's value; a read-back of a store that covered the block is the stored value. All this holds for any
  float arithmetic.
-/
import proofs.«147322_j14903536517286_2_alg».proof.Proof.Gen.KernelIdeal.Frame
import Idealize.ShloMosaic.Lib.Pipeline.Value
import Idealize.ShloMosaic.Lib.Tactic

set_option maxRecDepth 16384

noncomputable section

namespace Cert.KernelIdeal.Found

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The first point of a run leaves, in the first accumulator, the zero block plus the first block product. -/
theorem found_A_12 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) :
    out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 = k0_pay17 x0 k0_pay12 x1 := by
  unfold out0_A_12
  rw [View.read_writes_eq_canon _ _ _ (cover0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun0_A
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The same for the second accumulator. -/
theorem found_A_13 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) :
    out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 = k0_pay18 x0 k0_pay13 x2 := by
  unfold out0_A_13
  rw [View.read_writes_eq_canon _ _ _ (cover0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun0_A
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The same for the third accumulator. -/
theorem found_A_14 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) :
    out0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 = k0_pay19 x0 k0_pay14 x3 := by
  unfold out0_A_14
  rw [View.read_writes_eq_canon _ _ _ (cover0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun0_A
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The same for the fourth accumulator. -/
theorem found_A_15 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) :
    out0_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 = k0_pay1 (k0_pay16 x0) k0_pay15 x4 := by
  unfold out0_A_15
  rw [View.read_writes_eq_canon _ _ _ (cover0_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun0_A
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- A middle point of a run adds its block product to what the first accumulator held. -/
theorem found_B_12 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) (xo12 : Vec F S1024x256 .f32) (xo13 : Vec F S1024x256 .f32) (xo14 : Vec F S1024x256 .f32) (xo15 : Vec F S1024x256 .f32) :
    out0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15 = k0_pay17 x0 xo12 x1 := by
  unfold out0_B_12
  rw [View.read_writes_eq_canon _ _ _ (cover0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15)]
  unfold kernelRun0_B
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The same for the second accumulator. -/
theorem found_B_13 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) (xo12 : Vec F S1024x256 .f32) (xo13 : Vec F S1024x256 .f32) (xo14 : Vec F S1024x256 .f32) (xo15 : Vec F S1024x256 .f32) :
    out0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15 = k0_pay18 x0 xo13 x2 := by
  unfold out0_B_13
  rw [View.read_writes_eq_canon _ _ _ (cover0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15)]
  unfold kernelRun0_B
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The same for the third accumulator. -/
theorem found_B_14 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) (xo12 : Vec F S1024x256 .f32) (xo13 : Vec F S1024x256 .f32) (xo14 : Vec F S1024x256 .f32) (xo15 : Vec F S1024x256 .f32) :
    out0_B_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15 = k0_pay19 x0 xo14 x3 := by
  unfold out0_B_14
  rw [View.read_writes_eq_canon _ _ _ (cover0_B_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15)]
  unfold kernelRun0_B
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The same for the fourth accumulator. -/
theorem found_B_15 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) (xo12 : Vec F S1024x256 .f32) (xo13 : Vec F S1024x256 .f32) (xo14 : Vec F S1024x256 .f32) (xo15 : Vec F S1024x256 .f32) :
    out0_B_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15 = k0_pay1 (k0_pay16 x0) xo15 x4 := by
  unfold out0_B_15
  rw [View.read_writes_eq_canon _ _ _ (cover0_B_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15)]
  unfold kernelRun0_B
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The last point of a run adds its block products, then overwrites the first buffer with the new hidden state computed from the four finished sums. -/
theorem found_C_12 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) (xo12 : Vec F S1024x256 .f32) (xo13 : Vec F S1024x256 .f32) (xo14 : Vec F S1024x256 .f32) (xo15 : Vec F S1024x256 .f32) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15 = k0_pay3 (k0_pay7 (k0_pay17 x0 xo12 x1) x5 (k0_pay18 x0 xo13 x2) x6 x10) (k0_pay9 (k0_pay19 x0 xo14 x3) x7) (k0_pay10 (k0_pay17 x0 xo12 x1) x5 (k0_pay18 x0 xo13 x2) x6 (k0_pay1 (k0_pay16 x0) xo15 x4) x8 x10 x9) (k0_pay11 (k0_pay18 x0 xo13 x2) x6 x11) := by
  unfold out0_C_12
  rw [View.read_writes_eq_canon _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15)]
  unfold kernelRun0_C
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The second buffer ends with the new cell state. -/
theorem found_C_13 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) (xo12 : Vec F S1024x256 .f32) (xo13 : Vec F S1024x256 .f32) (xo14 : Vec F S1024x256 .f32) (xo15 : Vec F S1024x256 .f32) :
    out0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15 = k0_pay10 (k0_pay17 x0 xo12 x1) x5 (k0_pay18 x0 xo13 x2) x6 (k0_pay1 (k0_pay16 x0) xo15 x4) x8 x10 x9 := by
  unfold out0_C_13
  rw [View.read_writes_eq_canon _ _ _ (cover0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15)]
  unfold kernelRun0_C
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The third buffer ends with the new stabilizer state. -/
theorem found_C_14 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) (xo12 : Vec F S1024x256 .f32) (xo13 : Vec F S1024x256 .f32) (xo14 : Vec F S1024x256 .f32) (xo15 : Vec F S1024x256 .f32) :
    out0_C_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15 = k0_pay6 (k0_pay17 x0 xo12 x1) x5 (k0_pay18 x0 xo13 x2) x6 x10 := by
  unfold out0_C_14
  rw [View.read_writes_eq_canon _ _ _ (cover0_C_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15)]
  unfold kernelRun0_C
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

/-- The fourth buffer ends with the new normalizer state. -/
theorem found_C_15 (c : Dev nD) (i : grid0.Coords) (arg3 : Memref sig .tc .vmem S1024x512 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i)
    (x0 : Vec F S1024x512 .bf16) (x1 : Vec F S512x256 .bf16) (x2 : Vec F S512x256 .bf16) (x3 : Vec F S512x256 .bf16) (x4 : Vec F S512x256 .bf16) (x5 : Vec F S1x256 .f32) (x6 : Vec F S1x256 .f32) (x7 : Vec F S1x256 .f32) (x8 : Vec F S1x256 .f32) (x9 : Vec F S1024x256 .f32) (x10 : Vec F S1024x256 .f32) (x11 : Vec F S1024x256 .f32) (xo12 : Vec F S1024x256 .f32) (xo13 : Vec F S1024x256 .f32) (xo14 : Vec F S1024x256 .f32) (xo15 : Vec F S1024x256 .f32) :
    out0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15 = k0_pay2 (k0_pay7 (k0_pay17 x0 xo12 x1) x5 (k0_pay18 x0 xo13 x2) x6 x10) (k0_pay11 (k0_pay18 x0 xo13 x2) x6 x11) := by
  unfold out0_C_15
  rw [View.read_writes_eq_canon _ _ _ (cover0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xo12 xo13 xo14 xo15)]
  unfold kernelRun0_C
  dsimp only
  try sl_unfold_words
  first
    | rw [View.canon_unit_zero hz]
    | rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x512) hz, View.ld_unit_zero (S := S1024x256) hz, View.ld_unit_zero (S := S512x256) hz, View.ld_unit_zero (S := S1x256) hz]

end Cert.KernelIdeal.Found

end
-- ==== Proof.AtPoint.lean ====
/-
  What the four output buffers hold after each grid point, as values of the point's input blocks.

  The grid runs the contraction axis fastest: point t is step t mod 16 of its run. After the first step of a run each
  buffer holds the zero block plus the step's block product; after a middle step, what the step before left plus the
  step's block product; after the last step, the cell's results computed from the four finished sums. The step before
  the first step of a run belongs to another output block and is never read.
-/
import proofs.«147322_j14903536517286_2_alg».proof.Proof.Found

set_option maxRecDepth 16384

noncomputable section

namespace Cert.KernelIdeal.Found

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- What the point before t left in the four buffers. -/
abbrev prev (c : Dev nD) (t : Fin cfg0.N) : Vec F S1024x256 .f32 × Vec F S1024x256 .f32 × Vec F S1024x256 .f32 × Vec F S1024x256 .f32 :=
  outsAt0 m c (t.val - 1) (Nat.lt_of_le_of_lt (Nat.sub_le _ _) t.isLt)

/-- After the first step of a run. -/
theorem outs_A (c : Dev nD) (t : Fin cfg0.N) (h0 : t.val % 16 = 0) (h1 : ¬t.val % 16 = 15) :
    outsAt0 m c t.val t.isLt =
      (k0_pay17 (iblk m c 0 t) (k0_pay12 (F := F)) (iblk m c 1 t),
       k0_pay18 (iblk m c 0 t) (k0_pay13 (F := F)) (iblk m c 2 t),
       k0_pay19 (iblk m c 0 t) (k0_pay14 (F := F)) (iblk m c 3 t),
       k0_pay1 (k0_pay16 (iblk m c 0 t)) (k0_pay15 (F := F)) (iblk m c 4 t)) := by
  rw [outsAt0_A m c t h0 h1]
  have e1 := found_A_12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  have e2 := found_A_13 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  have e3 := found_A_14 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  have e4 := found_A_15 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  rw [e1, e2, e3, e4]

/-- After a middle step of a run. -/
theorem outs_B (c : Dev nD) (t : Fin cfg0.N) (h0 : ¬t.val % 16 = 0) (h1 : ¬t.val % 16 = 15) :
    outsAt0 m c t.val t.isLt =
      (k0_pay17 (iblk m c 0 t) (prev m c t).1 (iblk m c 1 t),
       k0_pay18 (iblk m c 0 t) (prev m c t).2.1 (iblk m c 2 t),
       k0_pay19 (iblk m c 0 t) (prev m c t).2.2.1 (iblk m c 3 t),
       k0_pay1 (k0_pay16 (iblk m c 0 t)) (prev m c t).2.2.2 (iblk m c 4 t)) := by
  rw [outsAt0_B m c t h0 h1]
  have e1 := found_B_12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).1 (prev m c t).2.1 (prev m c t).2.2.1 (prev m c t).2.2.2
  have e2 := found_B_13 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).1 (prev m c t).2.1 (prev m c t).2.2.1 (prev m c t).2.2.2
  have e3 := found_B_14 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).1 (prev m c t).2.1 (prev m c t).2.2.1 (prev m c t).2.2.2
  have e4 := found_B_15 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).1 (prev m c t).2.1 (prev m c t).2.2.1 (prev m c t).2.2.2
  rw [e1, e2, e3, e4]

/-- After the last step of a run. -/
theorem outs_C (c : Dev nD) (t : Fin cfg0.N) (h0 : ¬t.val % 16 = 0) (h1 : t.val % 16 = 15) :
    outsAt0 m c t.val t.isLt =
      (k0_pay3 (k0_pay7 (k0_pay17 (iblk m c 0 t) (prev m c t).1 (iblk m c 1 t)) (iblk m c 5 t) (k0_pay18 (iblk m c 0 t) (prev m c t).2.1 (iblk m c 2 t)) (iblk m c 6 t) (iblk m c 10 t)) (k0_pay9 (k0_pay19 (iblk m c 0 t) (prev m c t).2.2.1 (iblk m c 3 t)) (iblk m c 7 t)) (k0_pay10 (k0_pay17 (iblk m c 0 t) (prev m c t).1 (iblk m c 1 t)) (iblk m c 5 t) (k0_pay18 (iblk m c 0 t) (prev m c t).2.1 (iblk m c 2 t)) (iblk m c 6 t) (k0_pay1 (k0_pay16 (iblk m c 0 t)) (prev m c t).2.2.2 (iblk m c 4 t)) (iblk m c 8 t) (iblk m c 10 t) (iblk m c 9 t)) (k0_pay11 (k0_pay18 (iblk m c 0 t) (prev m c t).2.1 (iblk m c 2 t)) (iblk m c 6 t) (iblk m c 11 t)),
       k0_pay10 (k0_pay17 (iblk m c 0 t) (prev m c t).1 (iblk m c 1 t)) (iblk m c 5 t) (k0_pay18 (iblk m c 0 t) (prev m c t).2.1 (iblk m c 2 t)) (iblk m c 6 t) (k0_pay1 (k0_pay16 (iblk m c 0 t)) (prev m c t).2.2.2 (iblk m c 4 t)) (iblk m c 8 t) (iblk m c 10 t) (iblk m c 9 t),
       k0_pay6 (k0_pay17 (iblk m c 0 t) (prev m c t).1 (iblk m c 1 t)) (iblk m c 5 t) (k0_pay18 (iblk m c 0 t) (prev m c t).2.1 (iblk m c 2 t)) (iblk m c 6 t) (iblk m c 10 t),
       k0_pay2 (k0_pay7 (k0_pay17 (iblk m c 0 t) (prev m c t).1 (iblk m c 1 t)) (iblk m c 5 t) (k0_pay18 (iblk m c 0 t) (prev m c t).2.1 (iblk m c 2 t)) (iblk m c 6 t) (iblk m c 10 t)) (k0_pay11 (k0_pay18 (iblk m c 0 t) (prev m c t).2.1 (iblk m c 2 t)) (iblk m c 6 t) (iblk m c 11 t))) := by
  rw [outsAt0_C m c t h0 h1]
  have e1 := found_C_12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).1 (prev m c t).2.1 (prev m c t).2.2.1 (prev m c t).2.2.2
  have e2 := found_C_13 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).1 (prev m c t).2.1 (prev m c t).2.2.1 (prev m c t).2.2.2
  have e3 := found_C_14 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).1 (prev m c t).2.1 (prev m c t).2.2.1 (prev m c t).2.2.2
  have e4 := found_C_15 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).1 (prev m c t).2.1 (prev m c t).2.2.1 (prev m c t).2.2.2
  rw [e1, e2, e3, e4]

end Cert.KernelIdeal.Found

end
-- ==== Proof.LibContractAt.lean ====
/-
  GENERAL LEMMAS: a contraction over ONE axis, read at an output index, as a plain sum over that axis' coordinate,
  whatever the arrangement of the two operands (which axis of each is contracted, whether an operand enters transposed).

  The dimension record of a matrix product names, for an output index j and a contraction index s, one index of each
  operand. When the contraction has a single axis of extent K, the contraction indices are the numbers below K, and the
  product at j is the sum over k : Fin K of l (li k) * r (ri k), where li k and ri k are the two operand indices that the
  record names at j and k. The caller says what li and ri are (two equations per use, usually closed coordinate by
  coordinate); nothing here depends on the shapes.

  * contraction_at: the re-indexing of the sum.
  * matmul_at: the matrix unit's product into a zero accumulator, at j.
  * hostdot_at: the host's dot_general, at j.
  * contr_val: the number a contraction index stands for is its one coordinate.
  Only a change of summation index is used: no law of extended-real arithmetic, so no finiteness.
-/
import Idealize.ShloMosaic.PureOps.Ideal
import Idealize.ShloMosaic.PureOps.Ideal.Laws
import Idealize.ShloMosaic.Lib.ValueIdx

noncomputable section

namespace Cert.LibContractAt

open Idealize.ShloMosaic Idealize.ShloMosaic.ValueIdx
open scoped BigOperators

/-- The number a one-axis contraction index stands for is its one coordinate. -/
theorem contr_val {sl sr so : Shape} (d : DotDims sl sr so) (K : ℕ) (hrank : d.contr.rank = 1)
    (hsize : d.contr.size ⟨0, by omega⟩ = K) (s : d.contr.Idx) :
    ((contrEquiv1 d K hrank hsize s : Fin K) : ℕ) = (s ⟨0, by omega⟩).val := rfl

/-- A one-axis contraction at the output index j is the sum over k of l (li k) * r (ri k), where li and ri are the operand
    indices the record names at j. -/
theorem contraction_at {sl sr so : Shape} (d : DotDims sl sr so) (K : ℕ) (hrank : d.contr.rank = 1)
    (hsize : d.contr.size ⟨0, by omega⟩ = K) (l : sl.Idx → EReal) (r : sr.Idx → EReal) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    ∑ s : d.contr.Idx, l (d.lhsIdx j s) * r (d.rhsIdx j s) = ∑ k : Fin K, l (li k) * r (ri k) := by
  rw [← Equiv.sum_comp (contrEquiv1 d K hrank hsize)]
  exact Finset.sum_congr rfl fun s _ => by rw [hl s, hr s]

/-- The matrix unit's product into a zero accumulator, at j. -/
theorem matmul_at {sl sr so : Shape} (d : DotDims sl sr so) (K : ℕ) (hrank : d.contr.rank = 1)
    (hsize : d.contr.size ⟨0, by omega⟩ = K) {φ₁ φ₂ : FTy} (l : FVec Ideal sl φ₁) (r : FVec Ideal sr φ₂) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    matmul d none l r (constant (F := Ideal) so .f32 0x00000000#32) j = ∑ k : Fin K, l (li k) * r (ri k) :=
  (Ideal.matmul_constant_zero_apply d none l r j).trans (contraction_at d K hrank hsize l r j li ri hl hr)

/-- The host's dot_general, at j. -/
theorem hostdot_at {sl sr so : Shape} (d : DotDims sl sr so) (K : ℕ) (hrank : d.contr.rank = 1)
    (hsize : d.contr.size ⟨0, by omega⟩ = K) (l : FVec Ideal sl .f32) (r : FVec Ideal sr .f32) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    Host.dotGeneral d none l r j = ∑ k : Fin K, l (li k) * r (ri k) :=
  (Ideal.dotGeneral_apply d none .single l r j).trans (contraction_at d K hrank hsize l r j li ri hl hr)

end Cert.LibContractAt

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibExpLog.lean ====
/-
  GENERAL lemmas on the exponential, the logarithm and the logistic function of the extended reals, with the exact
  ("ideal") float operations. Nothing here mentions a program.

  * log_exp: log (exp x) = x for EVERY extended real x — exp sends -inf to 0 and log sends 0 back to -inf, +inf is fixed
    by both, and on a real number it is the real identity. (The other composition, exp (log x) = x, fails below 0.)
  * add_sub_cancel_isR: (a + b) - b = a when a and b are real numbers (with an infinite b the difference is a junk value).
  * logistic_spelled: 1 / (1 + exp (-x)), the 1 written as its f32 word and the quotient the extended reals' quotient, is
    the logistic function at every x, the infinities included.
  It imports LibMoments.lean of the same directory (the predicate "is a real number" and the f32 word of 1), so copy the two
  together.
-/
import Idealize.ShloMosaic.PureOps.Ideal
import proofs.«147322_j14903536517286_2_alg».proof.Proof.LibMoments

noncomputable section

namespace Cert.LibExpLog

open Idealize.ShloMosaic Cert.LibMoments

/-- The logarithm undoes the exponential on all of the extended reals. -/
theorem log_exp (x : EReal) : Ideal.log (Ideal.exp x) = x := by
  induction x using EReal.rec with
  | bot => rw [Ideal.exp_bot, ← EReal.coe_zero, Ideal.log_coe, if_pos le_rfl]
  | coe r => rw [Ideal.exp_coe, Ideal.log_coe, if_neg (not_le.mpr (Real.exp_pos r)), Real.log_exp]
  | top => rw [Ideal.exp_top, Ideal.log_top]

/-- Adding and then subtracting a real number leaves a real number as it was. -/
theorem add_sub_cancel_isR {a b : EReal} (ha : IsR a) (hb : IsR b) : a + b - b = a := by
  obtain ⟨x, rfl⟩ := ha
  obtain ⟨y, rfl⟩ := hb
  rw [← EReal.coe_add, ← EReal.coe_sub, add_sub_cancel_right]

/-- 1 / (1 + exp (-x)), written with the float word of 1, is the logistic function. -/
theorem logistic_spelled (x : EReal) :
    Ideal.div (Ideal.ofBits .f32 0x3F800000#32) (Ideal.ofBits .f32 0x3F800000#32 + Ideal.exp (-x)) = Ideal.logistic x := by
  rw [ofBits_one]; rfl

end Cert.LibExpLog

end
-- ==== Proof.Cell.lean ====
/-
  The cell's arithmetic on the extended reals, one entry at a time.

  From the four gate pre-activations s_i, s_f, s_o, s_c and the old state (m, c, n) of one entry the cell computes
    m' = max (s_f + m) s_i,   i' = exp (s_i - m'),   f' = exp s_f,
    c' = f' * c + i' * tanh s_c,   n' = f' * n + i',   h' = logistic s_o * (c' / n').
  The other program writes the same quantities through exp and log: it takes i = exp s_i and f = exp s_f first and then
  uses log i and log f where s_i and s_f are meant, and it writes f' as exp (log f + m' - m'). On the extended reals
  log (exp x) = x for every x (exp sends -inf to 0 and log sends 0 back to -inf; +inf is fixed by both), and
  (a + b) - b = a as soon as a and b are real numbers; m' is real when s_i, s_f and m are. The logistic function is, by
  definition, 1 / (1 + exp (-x)) with the quotient of the extended reals.
-/
import Idealize.ShloMosaic.PureOps.Ideal
import proofs.«147322_j14903536517286_2_alg».proof.Proof.LibMoments
import proofs.«147322_j14903536517286_2_alg».proof.Proof.LibExpLog

noncomputable section

namespace Cert.Cell

open Idealize.ShloMosaic Cert.LibMoments

/-- The new stabilizer state. -/
def mNew (si sf m : EReal) : EReal := max (sf + m) si

/-- The stabilized input gate. -/
def iP (si sf m : EReal) : EReal := Ideal.exp (si - mNew si sf m)

/-- The new cell state. -/
def cNew (si sf sc m c : EReal) : EReal := Ideal.exp sf * c + iP si sf m * Ideal.tanh sc

/-- The new normalizer state. -/
def nNew (si sf m n : EReal) : EReal := Ideal.exp sf * n + iP si sf m

/-- The new hidden state. -/
def hNew (si sf so sc m c n : EReal) : EReal :=
  Ideal.logistic so * Ideal.div (cNew si sf sc m c) (nNew si sf m n)

/-- The logarithm undoes the exponential on all of the extended reals. -/
theorem log_exp (x : EReal) : Ideal.log (Ideal.exp x) = x := Cert.LibExpLog.log_exp x

/-- The new stabilizer state is a real number when its three inputs are. -/
theorem isR_mNew {si sf m : EReal} (hi : IsR si) (hf : IsR sf) (hm : IsR m) : IsR (max (sf + m) si) :=
  (hf.add hm).max hi

/-- Adding and then subtracting the new stabilizer state leaves a real pre-activation as it was. -/
theorem exp_add_sub_cancel {si sf m : EReal} (hi : IsR si) (hf : IsR sf) (hm : IsR m) :
    Ideal.exp (sf + max (sf + m) si - max (sf + m) si) = Ideal.exp sf := by
  rw [Cert.LibExpLog.add_sub_cancel_isR hf (isR_mNew hi hf hm)]

/-- 1 / (1 + exp (-x)), written with the float word of 1, is the logistic function. -/
theorem logistic_spelled (x : EReal) :
    Ideal.div (Ideal.ofBits .f32 0x3F800000#32) (Ideal.ofBits .f32 0x3F800000#32 + Ideal.exp (-x)) = Ideal.logistic x :=
  Cert.LibExpLog.logistic_spelled x

end Cert.Cell

end
-- ==== Proof.Payloads.lean ====
/-
  The body's arithmetic read at one entry (r, l) of a [1024, 256] block, with exact arithmetic.

  * One accumulation step: the block product of the activations' [1024, 512] block with a weight [512, 256] block, added to
    what the accumulator held; at (r, l) it is acc (r, l) + sum over k < 512 of x (r, k) * w (k, l).
  * The last step of a run: the four accumulated products get their bias rows (a [1, 256] row laid along the 1024 rows
    reads, at (r, l), the row's entry l), and the cell's formulas are applied entry by entry.
-/
import proofs.«147322_j14903536517286_2_alg».proof.Proof.Gen.KernelIdeal.Skeleton
import proofs.«147322_j14903536517286_2_alg».proof.Proof.LibContractAt
import proofs.«147322_j14903536517286_2_alg».proof.Proof.Cell
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The product of an activation block with a weight block, at an entry. -/
def blockProd (x : S1024x512.Idx → EReal) (w : S512x256.Idx → EReal) : S1024x256.Idx → EReal :=
  fun j => ∑ kk : Fin 512, x (ix2 (j 0) kk) * w (ix2 kk (j 1))

theorem lhs_0 (j : S1024x256.Idx) (s : dot_S1024x512_S512x256_S1024x256_1_0_0_1_n_n.contr.Idx) : (dot_S1024x512_S512x256_S1024x256_1_0_0_1_n_n.lhsIdx j s 0).val = (j 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_1 (j : S1024x256.Idx) (s : dot_S1024x512_S512x256_S1024x256_1_0_0_1_n_n.contr.Idx) : (dot_S1024x512_S512x256_S1024x256_1_0_0_1_n_n.lhsIdx j s 1).val = (s ⟨0, by decide⟩).val :=
  dot_S1024x512_S512x256_S1024x256_1_0_0_1_n_n.lhsIdx_val_of_single rfl j s
theorem rhs_0 (j : S1024x256.Idx) (s : dot_S1024x512_S512x256_S1024x256_1_0_0_1_n_n.contr.Idx) : (dot_S1024x512_S512x256_S1024x256_1_0_0_1_n_n.rhsIdx j s 0).val = (s ⟨0, by decide⟩).val :=
  dot_S1024x512_S512x256_S1024x256_1_0_0_1_n_n.rhsIdx_val_of_single rfl j s
theorem rhs_1 (j : S1024x256.Idx) (s : dot_S1024x512_S512x256_S1024x256_1_0_0_1_n_n.contr.Idx) : (dot_S1024x512_S512x256_S1024x256_1_0_0_1_n_n.rhsIdx j s 1).val = (j 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The matrix unit's product into a zero accumulator is the block product. -/
theorem matmul_block (x : FVec Ideal S1024x512 .bf16) (w : FVec Ideal S512x256 .bf16) (j : S1024x256.Idx) :
    matmul dot_S1024x512_S512x256_S1024x256_1_0_0_1_n_n none x w (constant (F := Ideal) S1024x256 .f32 0x00000000#32) j = blockProd x w j :=
  Cert.LibContractAt.matmul_at dot_S1024x512_S512x256_S1024x256_1_0_0_1_n_n 512 rfl rfl x w j (fun k => ix2 (j 0) k) (fun k => ix2 k (j 1))
    (fun s => funext fun a => Fin.ext (by
      match a with
      | ⟨0, _⟩ => exact lhs_0 j s
      | ⟨1, _⟩ => exact lhs_1 j s))
    (fun s => funext fun a => Fin.ext (by
      match a with
      | ⟨0, _⟩ => exact rhs_0 j s
      | ⟨1, _⟩ => exact rhs_1 j s))

/-- The four accumulation steps: what the accumulator held plus the block product. -/
theorem step_i (x0 : Vec Ideal S1024x512 .bf16) (a : Vec Ideal S1024x256 .f32) (w : Vec Ideal S512x256 .bf16) (j : S1024x256.Idx) :
    k0_pay17 (F := Ideal) x0 a w j = a j + blockProd x0 w j := by
  unfold k0_pay17 k0_pay16
  simp only [shapeCast_self]
  exact congrArg (a j + ·) (matmul_block x0 w j)

theorem step_f (x0 : Vec Ideal S1024x512 .bf16) (a : Vec Ideal S1024x256 .f32) (w : Vec Ideal S512x256 .bf16) (j : S1024x256.Idx) :
    k0_pay18 (F := Ideal) x0 a w j = a j + blockProd x0 w j := by
  unfold k0_pay18 k0_pay16
  simp only [shapeCast_self]
  exact congrArg (a j + ·) (matmul_block x0 w j)

theorem step_o (x0 : Vec Ideal S1024x512 .bf16) (a : Vec Ideal S1024x256 .f32) (w : Vec Ideal S512x256 .bf16) (j : S1024x256.Idx) :
    k0_pay19 (F := Ideal) x0 a w j = a j + blockProd x0 w j := by
  unfold k0_pay19 k0_pay16
  simp only [shapeCast_self]
  exact congrArg (a j + ·) (matmul_block x0 w j)

theorem step_c (x0 : Vec Ideal S1024x512 .bf16) (a : Vec Ideal S1024x256 .f32) (w : Vec Ideal S512x256 .bf16) (j : S1024x256.Idx) :
    k0_pay1 (F := Ideal) (k0_pay16 x0) a w j = a j + blockProd x0 w j := by
  unfold k0_pay1 k0_pay16
  simp only [shapeCast_self]
  exact congrArg (a j + ·) (matmul_block x0 w j)

/-- The zero blocks a run starts from. -/
theorem zero_k0_pay12 (j : S1024x256.Idx) : (k0_pay12 (F := Ideal)) j = 0 := Ideal.ofBits_zero_f32
theorem zero_k0_pay13 (j : S1024x256.Idx) : (k0_pay13 (F := Ideal)) j = 0 := Ideal.ofBits_zero_f32
theorem zero_k0_pay14 (j : S1024x256.Idx) : (k0_pay14 (F := Ideal)) j = 0 := Ideal.ofBits_zero_f32
theorem zero_k0_pay15 (j : S1024x256.Idx) : (k0_pay15 (F := Ideal)) j = 0 := Ideal.ofBits_zero_f32

/-- A [1, 256] row laid along 1024 rows reads, at (r, l), the row's entry l. -/
theorem bias_row (b : Vec Ideal S1x256 .f32) (j : S1024x256.Idx) :
    broadcastTo S1024x256 (shapeCast S1x256 b shapeCasts_S1x256_S1x256) broadcasts_S1x256_S1024x256 j = b (ix2 0 (j 1)) := by
  rw [shapeCast_self]
  exact broadcastTo_apply b broadcasts_S1x256_S1024x256 j (ix2 0 (j 1)) (fun a => by
    match a with
    | ⟨0, _⟩ => show (0 : ℕ) = if (1 : ℕ) = 1 then 0 else _; rw [if_pos rfl]
    | ⟨1, _⟩ => show (j 1).val = if (256 : ℕ) = 1 then 0 else (j 1).val; rw [if_neg (by decide)])

/-- A pre-activation: the accumulated product plus its bias. -/
theorem pre_i (a : Vec Ideal S1024x256 .f32) (b : Vec Ideal S1x256 .f32) (j : S1024x256.Idx) :
    k0_pay4 (F := Ideal) a b j = a j + b (ix2 0 (j 1)) := by
  unfold k0_pay4
  simp only [shapeCast_self]
  exact congrArg (a j + ·) (by simpa only [shapeCast_self] using bias_row b j)

theorem pre_f (a : Vec Ideal S1024x256 .f32) (b : Vec Ideal S1x256 .f32) (j : S1024x256.Idx) :
    k0_pay5 (F := Ideal) a b j = a j + b (ix2 0 (j 1)) := by
  unfold k0_pay5
  simp only [shapeCast_self]
  exact congrArg (a j + ·) (by simpa only [shapeCast_self] using bias_row b j)

/-! ## The last step: the cell's formulas at an entry

  Below a_i, a_f, a_o, a_c are the four finished sums, b_i .. b_c the four bias rows, and m, c, n the old states' blocks. -/

/-- The new stabilizer state. -/
theorem epi_m (ai : Vec Ideal S1024x256 .f32) (bi : Vec Ideal S1x256 .f32) (af : Vec Ideal S1024x256 .f32) (bf : Vec Ideal S1x256 .f32)
    (mo : Vec Ideal S1024x256 .f32) (j : S1024x256.Idx) :
    k0_pay6 (F := Ideal) ai bi af bf mo j = Cell.mNew (ai j + bi (ix2 0 (j 1))) (af j + bf (ix2 0 (j 1))) (mo j) := by
  show max (k0_pay5 (F := Ideal) af bf j + mo j) (k0_pay4 (F := Ideal) ai bi j) = _
  rw [pre_i, pre_f]
  rfl

/-- The stabilized input gate. -/
theorem epi_ip (ai : Vec Ideal S1024x256 .f32) (bi : Vec Ideal S1x256 .f32) (af : Vec Ideal S1024x256 .f32) (bf : Vec Ideal S1x256 .f32)
    (mo : Vec Ideal S1024x256 .f32) (j : S1024x256.Idx) :
    k0_pay7 (F := Ideal) ai bi af bf mo j = Cell.iP (ai j + bi (ix2 0 (j 1))) (af j + bf (ix2 0 (j 1))) (mo j) := by
  show Ideal.exp (k0_pay4 (F := Ideal) ai bi j - k0_pay6 (F := Ideal) ai bi af bf mo j) = _
  rw [epi_m, pre_i]
  rfl

/-- The forget gate. -/
theorem epi_fp (af : Vec Ideal S1024x256 .f32) (bf : Vec Ideal S1x256 .f32) (j : S1024x256.Idx) :
    k0_pay8 (F := Ideal) af bf j = Ideal.exp (af j + bf (ix2 0 (j 1))) := by
  show Ideal.exp (k0_pay5 (F := Ideal) af bf j) = _
  rw [pre_f]

/-- The output gate. -/
theorem epi_o (ao : Vec Ideal S1024x256 .f32) (bo : Vec Ideal S1x256 .f32) (j : S1024x256.Idx) :
    k0_pay9 (F := Ideal) ao bo j = Ideal.logistic (ao j + bo (ix2 0 (j 1))) := by
  unfold k0_pay9
  simp only [shapeCast_self]
  exact congrArg Ideal.logistic (congrArg (ao j + ·) (by simpa only [shapeCast_self] using bias_row bo j))

/-- The new cell state. -/
theorem epi_c (ai : Vec Ideal S1024x256 .f32) (bi : Vec Ideal S1x256 .f32) (af : Vec Ideal S1024x256 .f32) (bf : Vec Ideal S1x256 .f32)
    (ac : Vec Ideal S1024x256 .f32) (bc : Vec Ideal S1x256 .f32) (mo co : Vec Ideal S1024x256 .f32) (j : S1024x256.Idx) :
    k0_pay10 (F := Ideal) ai bi af bf ac bc mo co j
      = Cell.cNew (ai j + bi (ix2 0 (j 1))) (af j + bf (ix2 0 (j 1))) (ac j + bc (ix2 0 (j 1))) (mo j) (co j) := by
  unfold k0_pay10
  simp only [shapeCast_self]
  show k0_pay8 (F := Ideal) af bf j * co j + k0_pay7 (F := Ideal) ai bi af bf mo j
      * Ideal.tanh (ac j + broadcastTo S1024x256 bc broadcasts_S1x256_S1024x256 j) = _
  rw [epi_fp, epi_ip, show broadcastTo S1024x256 bc broadcasts_S1x256_S1024x256 j = bc (ix2 0 (j 1)) by
    simpa only [shapeCast_self] using bias_row bc j]
  rfl

/-- The new normalizer state. -/
theorem epi_n (ai : Vec Ideal S1024x256 .f32) (bi : Vec Ideal S1x256 .f32) (af : Vec Ideal S1024x256 .f32) (bf : Vec Ideal S1x256 .f32)
    (mo no : Vec Ideal S1024x256 .f32) (j : S1024x256.Idx) :
    k0_pay2 (F := Ideal) (k0_pay7 ai bi af bf mo) (k0_pay11 af bf no) j
      = Cell.nNew (ai j + bi (ix2 0 (j 1))) (af j + bf (ix2 0 (j 1))) (mo j) (no j) := by
  show k0_pay8 (F := Ideal) af bf j * no j + k0_pay7 (F := Ideal) ai bi af bf mo j = _
  rw [epi_fp, epi_ip]
  rfl

/-- The new hidden state. -/
theorem epi_h (ai : Vec Ideal S1024x256 .f32) (bi : Vec Ideal S1x256 .f32) (af : Vec Ideal S1024x256 .f32) (bf : Vec Ideal S1x256 .f32)
    (ao : Vec Ideal S1024x256 .f32) (bo : Vec Ideal S1x256 .f32) (ac : Vec Ideal S1024x256 .f32) (bc : Vec Ideal S1x256 .f32)
    (mo co no : Vec Ideal S1024x256 .f32) (j : S1024x256.Idx) :
    k0_pay3 (F := Ideal) (k0_pay7 ai bi af bf mo) (k0_pay9 ao bo) (k0_pay10 ai bi af bf ac bc mo co) (k0_pay11 af bf no) j
      = Cell.hNew (ai j + bi (ix2 0 (j 1))) (af j + bf (ix2 0 (j 1))) (ao j + bo (ix2 0 (j 1))) (ac j + bc (ix2 0 (j 1))) (mo j) (co j) (no j) := by
  show k0_pay9 (F := Ideal) ao bo j * Ideal.div (k0_pay10 (F := Ideal) ai bi af bf ac bc mo co j)
      (k0_pay2 (F := Ideal) (k0_pay7 ai bi af bf mo) (k0_pay11 af bf no) j) = _
  rw [epi_o, epi_c, epi_n]
  rfl

end Cert.KernelIdeal.Payload

end
-- ==== Proof.LibTotals.lean ====
/-
  GENERAL lemmas on totals (extended reals, or any additive commutative monoid: no finiteness anywhere).

  * A float add-reduction over any set of axes keeps the total: the sum of the reduced array's entries is the sum of
    the source's entries. A shape cast keeps the total. An array whose axes all have extent one holds its total at
    its one index.
  * A sum over the index set of a rank-3 array is the triple sum over its coordinates.
  * A sum over Q blocks of P consecutive naturals is the sum over the first Q * P naturals.
  * An accumulator that is reset every P steps: if it starts a run of P steps at 0 + p and adds p at every other step,
    then r steps into run q it holds the sum of p over the run so far.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LibTotals

open Idealize.ShloMosaic Idealize.ShloMosaic.ValueIdx

/-- The entries of a float add-reduction sum to the total of the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- The entries of a shape cast sum to the total of the source. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- An array whose axes all have extent one: the total is its one entry. -/
theorem sum_of_unit {s : Shape} {M : Type*} [AddCommMonoid M] (hs : ∀ a, s.size a = 1) (x : s.Idx → M) (i0 : s.Idx) :
    ∑ i : s.Idx, x i = x i0 :=
  Fintype.sum_eq_single i0 fun i hi => absurd (funext fun a => Fin.ext (by
    have h1 := (i a).isLt; have h2 := (i0 a).isLt; have := hs a; omega)) hi

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Q blocks of P consecutive naturals are the first Q * P naturals. -/
theorem sum_blocks_nat {M : Type*} [AddCommMonoid M] (Q P : ℕ) (f : ℕ → M) :
    ∑ q : Fin Q, ∑ k : Fin P, f (k.val + P * q.val) = ∑ j : Fin (Q * P), f j.val := by
  rw [← (finProdFinEquiv (m := Q) (n := P)).sum_comp (fun j => f j.val), Fintype.sum_prod_type]
  rfl

/-- The accumulator that restarts every P steps (steps below N only): r steps into run q it is the sum of that run's
    first r + 1 terms. -/
theorem restart_acc {M : Type*} [AddCommMonoid M] (P N : ℕ) (p acc : ℕ → M)
    (h0 : 0 < N → acc 0 = 0 + p 0)
    (hr : ∀ n, n + 1 < N → (n + 1) % P = 0 → acc (n + 1) = 0 + p (n + 1))
    (hs : ∀ n, n + 1 < N → (n + 1) % P ≠ 0 → acc (n + 1) = acc n + p (n + 1)) :
    ∀ q r, r < P → P * q + r < N → acc (P * q + r) = ∑ k ∈ Finset.range (r + 1), p (P * q + k) := by
  intro q r
  induction r with
  | zero =>
    intro hP hN
    rw [Finset.sum_range_one, Nat.add_zero]
    cases q with
    | zero => rw [Nat.mul_zero, h0 hN, zero_add]
    | succ q =>
      obtain ⟨n, hn⟩ : ∃ n, P * (q + 1) = n + 1 := ⟨P * (q + 1) - 1, by
        have : 0 < P * (q + 1) := Nat.mul_pos hP (Nat.succ_pos q); omega⟩
      rw [hn] at hN ⊢
      rw [hr n hN (by rw [← hn]; exact Nat.mul_mod_right P (q + 1)), zero_add]
  | succ r ih =>
    intro hP hN
    have hmod : (P * q + r + 1) % P ≠ 0 := by
      rw [Nat.add_assoc, Nat.mul_add_mod, Nat.mod_eq_of_lt hP]; exact Nat.succ_ne_zero r
    rw [← Nat.add_assoc] at hN ⊢
    rw [hs _ hN hmod, ih (by omega) (by omega), Finset.sum_range_succ _ (r + 1), Nat.add_assoc]

end Cert.LibTotals

end
-- ==== Proof.Accum.lean ====
/-
  The four accumulators through a run of sixteen steps along the contraction axis.

  A run starts from the zero block and every step adds its block product, so after step r the accumulator holds the sum
  of the run's first r + 1 block products; at the last step (r = 15) the sum is complete before the epilogue overwrites
  the buffer. The accumulator is stated for every step number (taken modulo the number of grid points), so that the
  general statement on accumulators that restart every sixteen steps applies to it directly.
-/
import proofs.«147322_j14903536517286_2_alg».proof.Proof.AtPoint
import proofs.«147322_j14903536517286_2_alg».proof.Proof.Payloads
import proofs.«147322_j14903536517286_2_alg».proof.Proof.LibTotals

set_option maxRecDepth 16384

noncomputable section

open scoped BigOperators

namespace Cert.KernelIdeal.Accum

open Cert.KernelIdeal Cert.KernelIdeal.Gen Idealize.ShloMosaic Idealize.ShloMosaic.TcCoe Idealize.SL.Sem
open Cert.KernelIdeal.Found Cert.KernelIdeal.Payload

variable (m : (ℓ : Loc nD τ sig) → Buf (Elt Ideal) ℓ)

theorem N_eq : cfg0.N = 1024 := N_0

/-- The grid point numbered n (modulo the number of points). -/
def pt (n : ℕ) : Fin cfg0.N := ⟨n % 1024, lt_of_lt_of_eq (Nat.mod_lt n (by decide)) N_eq.symm⟩

theorem pt_val (n : ℕ) (h : n < 1024) : (pt n).val = n := Nat.mod_eq_of_lt h

theorem pt_eq (t : Fin cfg0.N) : pt t.val = t := Fin.ext (Nat.mod_eq_of_lt (lt_of_lt_of_eq t.isLt N_eq))

/-- The buffers' contents depend on the point's number only. -/
theorem outs_congr (c : Dev nD) {n₁ n₂ : ℕ} (h₁ : n₁ < cfg0.N) (h₂ : n₂ < cfg0.N) (e : n₁ = n₂) :
    outsAt0 m c n₁ h₁ = outsAt0 m c n₂ h₂ := by
  subst e; rfl

/-! ### The first accumulator -/

/-- The block product of step n. -/
def prodI (c : Dev nD) (n : ℕ) : S1024x256.Idx → EReal := blockProd (iblk m c 0 (pt n)) (iblk m c 1 (pt n))

/-- The first accumulator through step n: at the last step of a run, the sum before the buffer is overwritten. -/
def accI (c : Dev nD) (n : ℕ) : S1024x256.Idx → EReal :=
  if n % 16 = 15 then k0_pay17 (iblk m c 0 (pt n)) (prev m c (pt n)).1 (iblk m c 1 (pt n)) else (outsAt0 m c (pt n).val (pt n).isLt).1

theorem accI_first (c : Dev nD) (n : ℕ) (hn : n < 1024) (h : n % 16 = 0) : accI m c n = 0 + prodI m c n := by
  have hv : (pt n).val = n := pt_val n hn
  unfold accI
  rw [if_neg (by omega), outs_A m c (pt n) (by rw [hv]; exact h) (by rw [hv]; omega)]
  funext j
  show k0_pay17 (iblk m c 0 (pt n)) (k0_pay12 (F := Ideal)) (iblk m c 1 (pt n)) j = 0 + prodI m c n j
  rw [step_i, zero_k0_pay12]
  rfl

theorem accI_step (c : Dev nD) (n : ℕ) (hn : n + 1 < 1024) (h : (n + 1) % 16 ≠ 0) :
    accI m c (n + 1) = k0_pay17 (iblk m c 0 (pt (n + 1))) (prev m c (pt (n + 1))).1 (iblk m c 1 (pt (n + 1))) := by
  have hv : (pt (n + 1)).val = n + 1 := pt_val (n + 1) hn
  unfold accI
  by_cases h15 : (n + 1) % 16 = 15
  · rw [if_pos h15]
  · rw [if_neg h15, outs_B m c (pt (n + 1)) (by rw [hv]; exact h) (by rw [hv]; exact h15)]

theorem accI_next (c : Dev nD) (n : ℕ) (hn : n + 1 < 1024) (h : (n + 1) % 16 ≠ 0) :
    accI m c (n + 1) = accI m c n + prodI m c (n + 1) := by
  have hv : (pt (n + 1)).val = n + 1 := pt_val (n + 1) hn
  have hv' : (pt n).val = n := pt_val n (by omega)
  rw [accI_step m c n hn h]
  have hprev : (prev m c (pt (n + 1))).1 = accI m c n := by
    unfold accI
    rw [if_neg (by omega)]
    exact congrArg (fun p => p.1) (outs_congr m c _ _ (show (pt (n + 1)).val - 1 = (pt n).val by rw [hv, hv']; rfl))
  rw [hprev]
  funext j
  rw [step_i]
  rfl

/-- Through step r of run q the first accumulator holds the sum of the run's first r + 1 block products. -/
theorem accI_run (c : Dev nD) (q r : ℕ) (hr : r < 16) (hq : 16 * q + r < 1024) :
    accI m c (16 * q + r) = ∑ k ∈ Finset.range (r + 1), prodI m c (16 * q + k) :=
  Cert.LibTotals.restart_acc 16 1024 (prodI m c) (accI m c)
    (fun h => accI_first m c 0 h rfl)
    (fun n hn h => accI_first m c (n + 1) hn h)
    (fun n hn h => accI_next m c n hn h) q r hr hq

/-- At the last step of a run the first sum is complete: sixteen block products. -/
theorem doneI (c : Dev nD) (t : Fin cfg0.N) (h : t.val % 16 = 15) :
    k0_pay17 (iblk m c 0 t) (prev m c t).1 (iblk m c 1 t) = ∑ k ∈ Finset.range 16, prodI m c (16 * (t.val / 16) + k) := by
  have ht : t.val < 1024 := lt_of_lt_of_eq t.isLt N_eq
  have e := accI_run m c (t.val / 16) 15 (by decide) (by omega)
  rw [show 16 * (t.val / 16) + 15 = t.val by omega] at e
  unfold accI at e
  rw [if_pos h, pt_eq] at e
  exact e

/-! ### The second accumulator -/

/-- The block product of step n. -/
def prodF (c : Dev nD) (n : ℕ) : S1024x256.Idx → EReal := blockProd (iblk m c 0 (pt n)) (iblk m c 2 (pt n))

/-- The second accumulator through step n: at the last step of a run, the sum before the buffer is overwritten. -/
def accF (c : Dev nD) (n : ℕ) : S1024x256.Idx → EReal :=
  if n % 16 = 15 then k0_pay18 (iblk m c 0 (pt n)) (prev m c (pt n)).2.1 (iblk m c 2 (pt n)) else (outsAt0 m c (pt n).val (pt n).isLt).2.1

theorem accF_first (c : Dev nD) (n : ℕ) (hn : n < 1024) (h : n % 16 = 0) : accF m c n = 0 + prodF m c n := by
  have hv : (pt n).val = n := pt_val n hn
  unfold accF
  rw [if_neg (by omega), outs_A m c (pt n) (by rw [hv]; exact h) (by rw [hv]; omega)]
  funext j
  show k0_pay18 (iblk m c 0 (pt n)) (k0_pay13 (F := Ideal)) (iblk m c 2 (pt n)) j = 0 + prodF m c n j
  rw [step_f, zero_k0_pay13]
  rfl

theorem accF_step (c : Dev nD) (n : ℕ) (hn : n + 1 < 1024) (h : (n + 1) % 16 ≠ 0) :
    accF m c (n + 1) = k0_pay18 (iblk m c 0 (pt (n + 1))) (prev m c (pt (n + 1))).2.1 (iblk m c 2 (pt (n + 1))) := by
  have hv : (pt (n + 1)).val = n + 1 := pt_val (n + 1) hn
  unfold accF
  by_cases h15 : (n + 1) % 16 = 15
  · rw [if_pos h15]
  · rw [if_neg h15, outs_B m c (pt (n + 1)) (by rw [hv]; exact h) (by rw [hv]; exact h15)]

theorem accF_next (c : Dev nD) (n : ℕ) (hn : n + 1 < 1024) (h : (n + 1) % 16 ≠ 0) :
    accF m c (n + 1) = accF m c n + prodF m c (n + 1) := by
  have hv : (pt (n + 1)).val = n + 1 := pt_val (n + 1) hn
  have hv' : (pt n).val = n := pt_val n (by omega)
  rw [accF_step m c n hn h]
  have hprev : (prev m c (pt (n + 1))).2.1 = accF m c n := by
    unfold accF
    rw [if_neg (by omega)]
    exact congrArg (fun p => p.2.1) (outs_congr m c _ _ (show (pt (n + 1)).val - 1 = (pt n).val by rw [hv, hv']; rfl))
  rw [hprev]
  funext j
  rw [step_f]
  rfl

/-- Through step r of run q the second accumulator holds the sum of the run's first r + 1 block products. -/
theorem accF_run (c : Dev nD) (q r : ℕ) (hr : r < 16) (hq : 16 * q + r < 1024) :
    accF m c (16 * q + r) = ∑ k ∈ Finset.range (r + 1), prodF m c (16 * q + k) :=
  Cert.LibTotals.restart_acc 16 1024 (prodF m c) (accF m c)
    (fun h => accF_first m c 0 h rfl)
    (fun n hn h => accF_first m c (n + 1) hn h)
    (fun n hn h => accF_next m c n hn h) q r hr hq

/-- At the last step of a run the second sum is complete: sixteen block products. -/
theorem doneF (c : Dev nD) (t : Fin cfg0.N) (h : t.val % 16 = 15) :
    k0_pay18 (iblk m c 0 t) (prev m c t).2.1 (iblk m c 2 t) = ∑ k ∈ Finset.range 16, prodF m c (16 * (t.val / 16) + k) := by
  have ht : t.val < 1024 := lt_of_lt_of_eq t.isLt N_eq
  have e := accF_run m c (t.val / 16) 15 (by decide) (by omega)
  rw [show 16 * (t.val / 16) + 15 = t.val by omega] at e
  unfold accF at e
  rw [if_pos h, pt_eq] at e
  exact e

/-! ### The third accumulator -/

/-- The block product of step n. -/
def prodO (c : Dev nD) (n : ℕ) : S1024x256.Idx → EReal := blockProd (iblk m c 0 (pt n)) (iblk m c 3 (pt n))

/-- The third accumulator through step n: at the last step of a run, the sum before the buffer is overwritten. -/
def accO (c : Dev nD) (n : ℕ) : S1024x256.Idx → EReal :=
  if n % 16 = 15 then k0_pay19 (iblk m c 0 (pt n)) (prev m c (pt n)).2.2.1 (iblk m c 3 (pt n)) else (outsAt0 m c (pt n).val (pt n).isLt).2.2.1

theorem accO_first (c : Dev nD) (n : ℕ) (hn : n < 1024) (h : n % 16 = 0) : accO m c n = 0 + prodO m c n := by
  have hv : (pt n).val = n := pt_val n hn
  unfold accO
  rw [if_neg (by omega), outs_A m c (pt n) (by rw [hv]; exact h) (by rw [hv]; omega)]
  funext j
  show k0_pay19 (iblk m c 0 (pt n)) (k0_pay14 (F := Ideal)) (iblk m c 3 (pt n)) j = 0 + prodO m c n j
  rw [step_o, zero_k0_pay14]
  rfl

theorem accO_step (c : Dev nD) (n : ℕ) (hn : n + 1 < 1024) (h : (n + 1) % 16 ≠ 0) :
    accO m c (n + 1) = k0_pay19 (iblk m c 0 (pt (n + 1))) (prev m c (pt (n + 1))).2.2.1 (iblk m c 3 (pt (n + 1))) := by
  have hv : (pt (n + 1)).val = n + 1 := pt_val (n + 1) hn
  unfold accO
  by_cases h15 : (n + 1) % 16 = 15
  · rw [if_pos h15]
  · rw [if_neg h15, outs_B m c (pt (n + 1)) (by rw [hv]; exact h) (by rw [hv]; exact h15)]

theorem accO_next (c : Dev nD) (n : ℕ) (hn : n + 1 < 1024) (h : (n + 1) % 16 ≠ 0) :
    accO m c (n + 1) = accO m c n + prodO m c (n + 1) := by
  have hv : (pt (n + 1)).val = n + 1 := pt_val (n + 1) hn
  have hv' : (pt n).val = n := pt_val n (by omega)
  rw [accO_step m c n hn h]
  have hprev : (prev m c (pt (n + 1))).2.2.1 = accO m c n := by
    unfold accO
    rw [if_neg (by omega)]
    exact congrArg (fun p => p.2.2.1) (outs_congr m c _ _ (show (pt (n + 1)).val - 1 = (pt n).val by rw [hv, hv']; rfl))
  rw [hprev]
  funext j
  rw [step_o]
  rfl

/-- Through step r of run q the third accumulator holds the sum of the run's first r + 1 block products. -/
theorem accO_run (c : Dev nD) (q r : ℕ) (hr : r < 16) (hq : 16 * q + r < 1024) :
    accO m c (16 * q + r) = ∑ k ∈ Finset.range (r + 1), prodO m c (16 * q + k) :=
  Cert.LibTotals.restart_acc 16 1024 (prodO m c) (accO m c)
    (fun h => accO_first m c 0 h rfl)
    (fun n hn h => accO_first m c (n + 1) hn h)
    (fun n hn h => accO_next m c n hn h) q r hr hq

/-- At the last step of a run the third sum is complete: sixteen block products. -/
theorem doneO (c : Dev nD) (t : Fin cfg0.N) (h : t.val % 16 = 15) :
    k0_pay19 (iblk m c 0 t) (prev m c t).2.2.1 (iblk m c 3 t) = ∑ k ∈ Finset.range 16, prodO m c (16 * (t.val / 16) + k) := by
  have ht : t.val < 1024 := lt_of_lt_of_eq t.isLt N_eq
  have e := accO_run m c (t.val / 16) 15 (by decide) (by omega)
  rw [show 16 * (t.val / 16) + 15 = t.val by omega] at e
  unfold accO at e
  rw [if_pos h, pt_eq] at e
  exact e

/-! ### The fourth accumulator -/

/-- The block product of step n. -/
def prodC (c : Dev nD) (n : ℕ) : S1024x256.Idx → EReal := blockProd (iblk m c 0 (pt n)) (iblk m c 4 (pt n))

/-- The fourth accumulator through step n: at the last step of a run, the sum before the buffer is overwritten. -/
def accC (c : Dev nD) (n : ℕ) : S1024x256.Idx → EReal :=
  if n % 16 = 15 then k0_pay1 (k0_pay16 (iblk m c 0 (pt n))) (prev m c (pt n)).2.2.2 (iblk m c 4 (pt n)) else (outsAt0 m c (pt n).val (pt n).isLt).2.2.2

theorem accC_first (c : Dev nD) (n : ℕ) (hn : n < 1024) (h : n % 16 = 0) : accC m c n = 0 + prodC m c n := by
  have hv : (pt n).val = n := pt_val n hn
  unfold accC
  rw [if_neg (by omega), outs_A m c (pt n) (by rw [hv]; exact h) (by rw [hv]; omega)]
  funext j
  show k0_pay1 (k0_pay16 (iblk m c 0 (pt n))) (k0_pay15 (F := Ideal)) (iblk m c 4 (pt n)) j = 0 + prodC m c n j
  rw [step_c, zero_k0_pay15]
  rfl

theorem accC_step (c : Dev nD) (n : ℕ) (hn : n + 1 < 1024) (h : (n + 1) % 16 ≠ 0) :
    accC m c (n + 1) = k0_pay1 (k0_pay16 (iblk m c 0 (pt (n + 1)))) (prev m c (pt (n + 1))).2.2.2 (iblk m c 4 (pt (n + 1))) := by
  have hv : (pt (n + 1)).val = n + 1 := pt_val (n + 1) hn
  unfold accC
  by_cases h15 : (n + 1) % 16 = 15
  · rw [if_pos h15]
  · rw [if_neg h15, outs_B m c (pt (n + 1)) (by rw [hv]; exact h) (by rw [hv]; exact h15)]

theorem accC_next (c : Dev nD) (n : ℕ) (hn : n + 1 < 1024) (h : (n + 1) % 16 ≠ 0) :
    accC m c (n + 1) = accC m c n + prodC m c (n + 1) := by
  have hv : (pt (n + 1)).val = n + 1 := pt_val (n + 1) hn
  have hv' : (pt n).val = n := pt_val n (by omega)
  rw [accC_step m c n hn h]
  have hprev : (prev m c (pt (n + 1))).2.2.2 = accC m c n := by
    unfold accC
    rw [if_neg (by omega)]
    exact congrArg (fun p => p.2.2.2) (outs_congr m c _ _ (show (pt (n + 1)).val - 1 = (pt n).val by rw [hv, hv']; rfl))
  rw [hprev]
  funext j
  rw [step_c]
  rfl

/-- Through step r of run q the fourth accumulator holds the sum of the run's first r + 1 block products. -/
theorem accC_run (c : Dev nD) (q r : ℕ) (hr : r < 16) (hq : 16 * q + r < 1024) :
    accC m c (16 * q + r) = ∑ k ∈ Finset.range (r + 1), prodC m c (16 * q + k) :=
  Cert.LibTotals.restart_acc 16 1024 (prodC m c) (accC m c)
    (fun h => accC_first m c 0 h rfl)
    (fun n hn h => accC_first m c (n + 1) hn h)
    (fun n hn h => accC_next m c n hn h) q r hr hq

/-- At the last step of a run the fourth sum is complete: sixteen block products. -/
theorem doneC (c : Dev nD) (t : Fin cfg0.N) (h : t.val % 16 = 15) :
    k0_pay1 (k0_pay16 (iblk m c 0 t)) (prev m c t).2.2.2 (iblk m c 4 t) = ∑ k ∈ Finset.range 16, prodC m c (16 * (t.val / 16) + k) := by
  have ht : t.val < 1024 := lt_of_lt_of_eq t.isLt N_eq
  have e := accC_run m c (t.val / 16) 15 (by decide) (by omega)
  rw [show 16 * (t.val / 16) + 15 = t.val by omega] at e
  unfold accC at e
  rw [if_pos h, pt_eq] at e
  exact e

end Cert.KernelIdeal.Accum

end
-- ==== Proof.Sums.lean ====
/-
  Entries of a matrix named by natural numbers, and the contraction over a fused axis.

  nat2 x a b is the entry (a, b) of the matrix x when a and b are inside its extents (and 0 otherwise: never used).
  With it a sum over 16 blocks of 512 consecutive contraction indices is a sum over all 8192 of them, and a sum over
  8192 = 4096 + 4096 indices is the sum over the first half plus the sum over the second half. Only commutativity and
  associativity of the sum are used, so nothing here asks for finite entries.
-/
import Idealize.ShloMosaic.Lib.ValueIdx
import Mathlib.Algebra.BigOperators.Fin
import Mathlib.Data.EReal.Basic
import proofs.«147322_j14903536517286_2_alg».proof.Proof.LibTotals

noncomputable section

open scoped BigOperators

namespace Cert.Sums

open Idealize.ShloMosaic Idealize.ShloMosaic.ValueIdx

/-- Entry (a, b) of a matrix, for natural numbers a and b. -/
def nat2 {A B : ℕ} (x : (⟨2, ![A, B]⟩ : Shape).Idx → EReal) (a b : ℕ) : EReal :=
  if h : a < A ∧ b < B then x (ix2 ⟨a, h.1⟩ ⟨b, h.2⟩) else 0

theorem nat2_ix2 {A B : ℕ} (x : (⟨2, ![A, B]⟩ : Shape).Idx → EReal) (p : Fin A) (q : Fin B) :
    nat2 x p.val q.val = x (ix2 p q) := by
  unfold nat2; rw [dif_pos ⟨p.isLt, q.isLt⟩]

theorem nat2_of_lt {A B : ℕ} (x : (⟨2, ![A, B]⟩ : Shape).Idx → EReal) (a b : ℕ) (ha : a < A) (hb : b < B) :
    nat2 x a b = x (ix2 ⟨a, ha⟩ ⟨b, hb⟩) := by
  unfold nat2; rw [dif_pos ⟨ha, hb⟩]

theorem nat2_idx {A B : ℕ} (x : (⟨2, ![A, B]⟩ : Shape).Idx → EReal) (j : (⟨2, ![A, B]⟩ : Shape).Idx) :
    nat2 x (j 0).val (j 1).val = x j :=
  (nat2_ix2 x (j 0) (j 1)).trans (congrArg x (eq_ix2 j).symm)

/-- Sixteen blocks of 512 contraction indices are the 8192 indices of the fused axis. -/
theorem sum_blocks (f : ℕ → EReal) :
    ∑ kb ∈ Finset.range 16, ∑ kk : Fin 512, f (512 * kb + kk.val) = ∑ j : Fin 8192, f j.val := by
  rw [← Cert.LibTotals.sum_blocks_nat 16 512 f, Finset.sum_range]
  exact Finset.sum_congr rfl fun q _ => Finset.sum_congr rfl fun k _ => by rw [Nat.add_comm]

/-- The fused axis is the first operand's 4096 indices followed by the second's. -/
theorem sum_halves (f : ℕ → EReal) :
    ∑ j : Fin 8192, f j.val = (∑ k : Fin 4096, f k.val) + ∑ k : Fin 4096, f (4096 + k.val) := by
  rw [show (8192 : ℕ) = 4096 + 4096 from rfl, Fin.sum_univ_add]
  rfl

end Cert.Sums

end
-- ==== Proof.Glue.lean ====
/-
  The arrays the region reads, entry by entry, in terms of the program's arguments.

  Before the region the program casts x and the transposed h to bf16 and sets them side by side as one [4096, 8192] matrix
  (columns 0..4095 are x's, columns 4096..8191 the transposed h's); for each gate it casts the input weights and the
  recurrent weights and stacks them as one [8192, 4096] matrix (rows 0..4095 the input weights, rows 4096..8191 the recurrent
  ones); and it reshapes each bias vector into one row. With exact arithmetic a cast is the identity. So the contraction of
  a row of the fused activations with a column of the fused weights, over all 8192 indices, is the contraction of x's
  row with the input weights' column plus the contraction of h's column with the recurrent weights' column.
-/
import proofs.«147322_j14903536517286_2_alg».proof.Proof.Gen.KernelIdeal.Frame
import proofs.«147322_j14903536517286_2_alg».proof.Proof.Sums
import Idealize.ShloMosaic.Lib.Pipeline.Value
import Idealize.ShloMosaic.Lib.ValueLayout
import Idealize.ShloMosaic.Lib.StableHlo.Run
import Idealize.ShloMosaic.Lib.Tactic
import Idealize.ShloMosaic.PureOps.Ideal

noncomputable section

open scoped BigOperators

namespace Cert.KernelIdeal.Glue

open Cert.KernelIdeal Cert.KernelIdeal.Gen Idealize.ShloMosaic Idealize.ShloMosaic.TcCoe Idealize.SL.Sem
open Idealize.ShloMosaic.ValueIdx Cert.Sums

/-- Two matrices side by side. -/
abbrev sideBySide (a b : FVec Ideal S4096x4096 .bf16) : S4096x8192.Idx → EReal :=
  concatenate S4096x8192 1 [⟨S4096x4096, a⟩, ⟨S4096x4096, b⟩] concatenates_S4096x4096_S4096x4096_S4096x8192_d1

/-- Two matrices one above the other. -/
abbrev stacked (a b : FVec Ideal S4096x4096 .bf16) : S8192x4096.Idx → EReal :=
  concatenate S8192x4096 0 [⟨S4096x4096, a⟩, ⟨S4096x4096, b⟩] concatenates_S4096x4096_S4096x4096_S8192x4096_d0

theorem side_left (a b : FVec Ideal S4096x4096 .bf16) (p k : Fin 4096) (hk : k.val < 8192) :
    sideBySide a b (ix2 p ⟨k.val, hk⟩) = a (ix2 p k) :=
  concatenate_apply_piece (1 : Fin S4096x8192.rank) [⟨S4096x4096, a⟩, ⟨S4096x4096, b⟩] concatenates_S4096x4096_S4096x4096_S4096x8192_d1 (ix2 p ⟨k.val, hk⟩)
    0 Nat.zero_lt_two S4096x4096 a rfl rfl 0 rfl (ix2 p k)
    (fun b hb => by
      match b with
      | ⟨0, _⟩ => rfl
      | ⟨1, _⟩ => exact absurd rfl hb)
    (by show 0 + k.val = k.val; omega)

theorem side_right (a b : FVec Ideal S4096x4096 .bf16) (p k : Fin 4096) (hk : 4096 + k.val < 8192) :
    sideBySide a b (ix2 p ⟨4096 + k.val, hk⟩) = b (ix2 p k) :=
  concatenate_apply_piece (1 : Fin S4096x8192.rank) [⟨S4096x4096, a⟩, ⟨S4096x4096, b⟩] concatenates_S4096x4096_S4096x4096_S4096x8192_d1 (ix2 p ⟨4096 + k.val, hk⟩)
    1 Nat.one_lt_two S4096x4096 b rfl rfl 4096 rfl (ix2 p k)
    (fun b hb => by
      match b with
      | ⟨0, _⟩ => rfl
      | ⟨1, _⟩ => exact absurd rfl hb)
    (by show 4096 + k.val = 4096 + k.val; rfl)

theorem stack_top (a b : FVec Ideal S4096x4096 .bf16) (k q : Fin 4096) (hk : k.val < 8192) :
    stacked a b (ix2 ⟨k.val, hk⟩ q) = a (ix2 k q) :=
  concatenate_apply_piece (0 : Fin S8192x4096.rank) [⟨S4096x4096, a⟩, ⟨S4096x4096, b⟩] concatenates_S4096x4096_S4096x4096_S8192x4096_d0 (ix2 ⟨k.val, hk⟩ q)
    0 Nat.zero_lt_two S4096x4096 a rfl rfl 0 rfl (ix2 k q)
    (fun b hb => by
      match b with
      | ⟨0, _⟩ => exact absurd rfl hb
      | ⟨1, _⟩ => rfl)
    (by show 0 + k.val = k.val; omega)

theorem stack_bottom (a b : FVec Ideal S4096x4096 .bf16) (k q : Fin 4096) (hk : 4096 + k.val < 8192) :
    stacked a b (ix2 ⟨4096 + k.val, hk⟩ q) = b (ix2 k q) :=
  concatenate_apply_piece (0 : Fin S8192x4096.rank) [⟨S4096x4096, a⟩, ⟨S4096x4096, b⟩] concatenates_S4096x4096_S4096x4096_S8192x4096_d0 (ix2 ⟨4096 + k.val, hk⟩ q)
    1 Nat.one_lt_two S4096x4096 b rfl rfl 4096 rfl (ix2 k q)
    (fun b hb => by
      match b with
      | ⟨0, _⟩ => exact absurd rfl hb
      | ⟨1, _⟩ => rfl)
    (by show 4096 + k.val = 4096 + k.val; rfl)

/-- The contraction over the fused axis splits into the two original contractions. -/
theorem fused_contraction (a b w u : FVec Ideal S4096x4096 .bf16) (p q : Fin 4096) :
    ∑ z : Fin 8192, nat2 (sideBySide a b) p.val z.val * nat2 (stacked w u) z.val q.val
      = (∑ k : Fin 4096, a (ix2 p k) * w (ix2 k q)) + ∑ k : Fin 4096, b (ix2 p k) * u (ix2 k q) := by
  rw [sum_halves (fun z => nat2 (sideBySide a b) p.val z * nat2 (stacked w u) z q.val)]
  congr 1
  · refine Finset.sum_congr rfl fun k _ => ?_
    have hk : k.val < 8192 := by have := k.isLt; omega
    rw [nat2_of_lt _ _ _ p.isLt hk, nat2_of_lt _ _ _ hk q.isLt, side_left a b p k hk, stack_top w u k q hk]
  · refine Finset.sum_congr rfl fun k _ => ?_
    have hk : 4096 + k.val < 8192 := by have := k.isLt; omega
    rw [nat2_of_lt _ _ _ p.isLt hk, nat2_of_lt _ _ _ hk q.isLt, side_right a b p k hk, stack_bottom w u k q hk]

variable (m : (ℓ : Loc nD τ sig) → Buf (Elt Ideal) ℓ)

/-- The transposed previous hidden state. -/
abbrev hT (c : Dev nD) : FVec Ideal S4096x4096 .f32 :=
  transpose S4096x4096 [1, 0] (m ((c : Thread nD τ).loc main_arg1) : FVec Ideal S4096x4096 .f32) transposes_S4096x4096_S4096x4096_1_0

theorem hT_apply (c : Dev nD) (p k : Fin 4096) : hT m c (ix2 p k) = m ((c : Thread nD τ).loc main_arg1) (ix2 k p) :=
  transpose_apply [1, 0] _ transposes_S4096x4096_S4096x4096_1_0 (ix2 p k) (ix2 k p) (fun b => by
    match b with
    | ⟨0, _⟩ => rfl
    | ⟨1, _⟩ => rfl)

/-- The fused activations as the region finds them. -/
theorem V_act (c : Dev nD) : (V m c main_v3 : S4096x8192.Idx → EReal) =
    sideBySide (truncf (F := Ideal) .bf16 (m ((c : Thread nD τ).loc main_arg0) : FVec Ideal S4096x4096 .f32) bitsLt_bf16_f32) (truncf (F := Ideal) .bf16 (hT m c) bitsLt_bf16_f32) := by
  dsimp only [Gen.V, Gen.hostOps0]
  after_results

/-- The four fused weight matrices as the region finds them. -/
theorem V_wi (c : Dev nD) : (V m c main_v6 : S8192x4096.Idx → EReal) =
    stacked (truncf (F := Ideal) .bf16 (m ((c : Thread nD τ).loc main_arg5) : FVec Ideal S4096x4096 .f32) bitsLt_bf16_f32) (truncf (F := Ideal) .bf16 (m ((c : Thread nD τ).loc main_arg9) : FVec Ideal S4096x4096 .f32) bitsLt_bf16_f32) := by
  dsimp only [Gen.V, Gen.hostOps0]
  after_results
theorem V_wf (c : Dev nD) : (V m c main_v9 : S8192x4096.Idx → EReal) =
    stacked (truncf (F := Ideal) .bf16 (m ((c : Thread nD τ).loc main_arg6) : FVec Ideal S4096x4096 .f32) bitsLt_bf16_f32) (truncf (F := Ideal) .bf16 (m ((c : Thread nD τ).loc main_arg10) : FVec Ideal S4096x4096 .f32) bitsLt_bf16_f32) := by
  dsimp only [Gen.V, Gen.hostOps0]
  after_results
theorem V_wo (c : Dev nD) : (V m c main_v12 : S8192x4096.Idx → EReal) =
    stacked (truncf (F := Ideal) .bf16 (m ((c : Thread nD τ).loc main_arg7) : FVec Ideal S4096x4096 .f32) bitsLt_bf16_f32) (truncf (F := Ideal) .bf16 (m ((c : Thread nD τ).loc main_arg11) : FVec Ideal S4096x4096 .f32) bitsLt_bf16_f32) := by
  dsimp only [Gen.V, Gen.hostOps0]
  after_results
theorem V_wc (c : Dev nD) : (V m c main_v15 : S8192x4096.Idx → EReal) =
    stacked (truncf (F := Ideal) .bf16 (m ((c : Thread nD τ).loc main_arg8) : FVec Ideal S4096x4096 .f32) bitsLt_bf16_f32) (truncf (F := Ideal) .bf16 (m ((c : Thread nD τ).loc main_arg12) : FVec Ideal S4096x4096 .f32) bitsLt_bf16_f32) := by
  dsimp only [Gen.V, Gen.hostOps0]
  after_results

/-- The four bias rows as the region finds them. -/
theorem V_bi (c : Dev nD) : (V m c main_v16 : S1x4096.Idx → EReal) = shapeCast S1x4096 (m ((c : Thread nD τ).loc main_arg13) : FVec Ideal S4096 .f32) shapeCasts_S4096_S1x4096 := by
  dsimp only [Gen.V, Gen.hostOps0]
  after_results
  rfl
theorem V_bf (c : Dev nD) : (V m c main_v17 : S1x4096.Idx → EReal) = shapeCast S1x4096 (m ((c : Thread nD τ).loc main_arg14) : FVec Ideal S4096 .f32) shapeCasts_S4096_S1x4096 := by
  dsimp only [Gen.V, Gen.hostOps0]
  after_results
  rfl
theorem V_bo (c : Dev nD) : (V m c main_v18 : S1x4096.Idx → EReal) = shapeCast S1x4096 (m ((c : Thread nD τ).loc main_arg15) : FVec Ideal S4096 .f32) shapeCasts_S4096_S1x4096 := by
  dsimp only [Gen.V, Gen.hostOps0]
  after_results
  rfl
theorem V_bc (c : Dev nD) : (V m c main_v19 : S1x4096.Idx → EReal) = shapeCast S1x4096 (m ((c : Thread nD τ).loc main_arg16) : FVec Ideal S4096 .f32) shapeCasts_S4096_S1x4096 := by
  dsimp only [Gen.V, Gen.hostOps0]
  after_results
  rfl

/-- A vector reshaped into one row reads, at (0, q), the vector at q. -/
theorem row_apply (b : FVec Ideal S4096 .f32) (q : Fin 4096) :
    shapeCast S1x4096 b shapeCasts_S4096_S1x4096 (ix2 0 q) = b (ix1 q) :=
  shapeCast_a_1a_apply b shapeCasts_S4096_S1x4096 0 q

end Cert.KernelIdeal.Glue

end
-- ==== Proof.Spec.lean ====
/-
  The cell step on whole arrays: what both programs compute, entry by entry.

  The arguments are the batch x [4096, 4096], the previous hidden state h [4096, 4096] (stored transposed: entry (k, p) is
  hidden unit k of batch row p), the states c, m, n [4096, 4096], four input weight matrices w and four recurrent weight
  matrices u [4096, 4096], and four bias vectors b [4096]. For a gate g the pre-activation at (p, q) is
      s_g (p, q) = sum over k of x (p, k) * w_g (k, q)  +  sum over k of h (k, p) * u_g (k, q)  +  b_g (q),
  and the four results at (p, q) are the cell's formulas (Cell.lean) of s_i, s_f, s_o, s_c and the old states at (p, q).
-/
import Idealize.ShloMosaic.Lib.ValueIdx
import proofs.«147322_j14903536517286_2_alg».proof.Proof.Cell

noncomputable section

open scoped BigOperators

namespace Cert.Spec

open Idealize.ShloMosaic Idealize.ShloMosaic.ValueIdx Cert.LibMoments

abbrev Mat : Type := (⟨2, ![4096, 4096]⟩ : Shape).Idx → EReal
abbrev Row : Type := (⟨1, ![4096]⟩ : Shape).Idx → EReal

/-- The seventeen argument arrays. -/
structure Args where
  x : Mat
  h : Mat
  c : Mat
  m : Mat
  n : Mat
  wi : Mat
  wf : Mat
  wo : Mat
  wc : Mat
  ui : Mat
  uf : Mat
  uo : Mat
  uc : Mat
  bi : Row
  bf : Row
  bo : Row
  bc : Row

/-- Every entry of every argument is a real number. -/
structure Args.Real (A : Args) : Prop where
  x : ∀ i, IsR (A.x i)
  h : ∀ i, IsR (A.h i)
  c : ∀ i, IsR (A.c i)
  m : ∀ i, IsR (A.m i)
  n : ∀ i, IsR (A.n i)
  wi : ∀ i, IsR (A.wi i)
  wf : ∀ i, IsR (A.wf i)
  wo : ∀ i, IsR (A.wo i)
  wc : ∀ i, IsR (A.wc i)
  ui : ∀ i, IsR (A.ui i)
  uf : ∀ i, IsR (A.uf i)
  uo : ∀ i, IsR (A.uo i)
  uc : ∀ i, IsR (A.uc i)
  bi : ∀ i, IsR (A.bi i)
  bf : ∀ i, IsR (A.bf i)
  bo : ∀ i, IsR (A.bo i)
  bc : ∀ i, IsR (A.bc i)

/-- A gate's pre-activation at an entry. -/
def pre (x h w u : Mat) (b : Row) (j : (⟨2, ![4096, 4096]⟩ : Shape).Idx) : EReal :=
  (∑ k : Fin 4096, x (ix2 (j 0) k) * w (ix2 k (j 1))) + (∑ k : Fin 4096, h (ix2 k (j 0)) * u (ix2 k (j 1))) + b (ix1 (j 1))

/-- A pre-activation of real arguments is real. -/
theorem isR_pre {x h w u : Mat} {b : Row} (hx : ∀ i, IsR (x i)) (hh : ∀ i, IsR (h i)) (hw : ∀ i, IsR (w i))
    (hu : ∀ i, IsR (u i)) (hb : ∀ i, IsR (b i)) (j : (⟨2, ![4096, 4096]⟩ : Shape).Idx) : IsR (pre x h w u b j) :=
  ((IsR.sum _ fun k => (hx _).mul (hw _)).add (IsR.sum _ fun k => (hh _).mul (hu _))).add (hb _)

def si (A : Args) := pre A.x A.h A.wi A.ui A.bi
def sf (A : Args) := pre A.x A.h A.wf A.uf A.bf
def so (A : Args) := pre A.x A.h A.wo A.uo A.bo
def sc (A : Args) := pre A.x A.h A.wc A.uc A.bc

/-- The new hidden state, the new cell state, the new stabilizer state and the new normalizer state, as arrays. -/
def outH (A : Args) : Mat := fun j => Cell.hNew (si A j) (sf A j) (so A j) (sc A j) (A.m j) (A.c j) (A.n j)
def outC (A : Args) : Mat := fun j => Cell.cNew (si A j) (sf A j) (sc A j) (A.m j) (A.c j)
def outM (A : Args) : Mat := fun j => Cell.mNew (si A j) (sf A j) (A.m j)
def outN (A : Args) : Mat := fun j => Cell.nNew (si A j) (sf A j) (A.m j) (A.n j)

end Cert.Spec

end
-- ==== Proof.Final.lean ====
/-
  From blocks to arrays: after the run the four result arrays are the specification's, entry by entry.

  Output block (a, b) of a result is written back once, after the last of the sixteen steps of its run. Entry (r, l) of
  that block is entry (1024 a + r, 256 b + l) of the array. At that step the four sums are complete; step k of the run read
  columns 512 k .. 512 k + 511 of rows 1024 a .. of the fused activations and the same rows, columns 256 b .. of a fused
  weight matrix, so the sixteen block products add up to the contraction over all 8192 fused indices, which splits into
  the two original contractions. The bias rows and the old states are read at the same entry.
-/
import proofs.«147322_j14903536517286_2_alg».proof.Proof.Gen.KernelIdeal.Value
import proofs.«147322_j14903536517286_2_alg».proof.Proof.Accum
import proofs.«147322_j14903536517286_2_alg».proof.Proof.Glue
import proofs.«147322_j14903536517286_2_alg».proof.Proof.Spec

set_option maxRecDepth 16384

noncomputable section

open scoped BigOperators

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Sums Cert.KernelIdeal.Found Cert.KernelIdeal.Payload Cert.KernelIdeal.Accum Cert.KernelIdeal.Glue

variable (m : (ℓ : Loc nD τ sig) → Buf (Elt Ideal) ℓ) (ρ : Dev nD → PrngReg)

/-- The program's seventeen arguments on a core. -/
def args (c : Dev nD) : Spec.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16)⟩

/-! ## Where each window's block sits at point t: the grid is (row block, column block, contraction step), the step fastest -/

theorem idx_act : ∀ t : Fin cfg0.N, win0_0.index t (0 : Fin 2) = t.val / 256 ∧ win0_0.index t (1 : Fin 2) = t.val % 16 :=
  (by decide +kernel : ∀ t : Fin grid0.N, win0_0.index t (0 : Fin 2) = t.val / 256 ∧ win0_0.index t (1 : Fin 2) = t.val % 16)

theorem idx_w1 : ∀ t : Fin cfg0.N, win0_1.index t (0 : Fin 2) = t.val % 16 ∧ win0_1.index t (1 : Fin 2) = t.val / 16 % 16 :=
  (by decide +kernel : ∀ t : Fin grid0.N, win0_1.index t (0 : Fin 2) = t.val % 16 ∧ win0_1.index t (1 : Fin 2) = t.val / 16 % 16)
theorem idx_w2 : ∀ t : Fin cfg0.N, win0_2.index t (0 : Fin 2) = t.val % 16 ∧ win0_2.index t (1 : Fin 2) = t.val / 16 % 16 :=
  (by decide +kernel : ∀ t : Fin grid0.N, win0_2.index t (0 : Fin 2) = t.val % 16 ∧ win0_2.index t (1 : Fin 2) = t.val / 16 % 16)
theorem idx_w3 : ∀ t : Fin cfg0.N, win0_3.index t (0 : Fin 2) = t.val % 16 ∧ win0_3.index t (1 : Fin 2) = t.val / 16 % 16 :=
  (by decide +kernel : ∀ t : Fin grid0.N, win0_3.index t (0 : Fin 2) = t.val % 16 ∧ win0_3.index t (1 : Fin 2) = t.val / 16 % 16)
theorem idx_w4 : ∀ t : Fin cfg0.N, win0_4.index t (0 : Fin 2) = t.val % 16 ∧ win0_4.index t (1 : Fin 2) = t.val / 16 % 16 :=
  (by decide +kernel : ∀ t : Fin grid0.N, win0_4.index t (0 : Fin 2) = t.val % 16 ∧ win0_4.index t (1 : Fin 2) = t.val / 16 % 16)

theorem idx_b5 : ∀ t : Fin cfg0.N, win0_5.index t (0 : Fin 2) = 0 ∧ win0_5.index t (1 : Fin 2) = t.val / 16 % 16 :=
  (by decide +kernel : ∀ t : Fin grid0.N, win0_5.index t (0 : Fin 2) = 0 ∧ win0_5.index t (1 : Fin 2) = t.val / 16 % 16)
theorem idx_b6 : ∀ t : Fin cfg0.N, win0_6.index t (0 : Fin 2) = 0 ∧ win0_6.index t (1 : Fin 2) = t.val / 16 % 16 :=
  (by decide +kernel : ∀ t : Fin grid0.N, win0_6.index t (0 : Fin 2) = 0 ∧ win0_6.index t (1 : Fin 2) = t.val / 16 % 16)
theorem idx_b7 : ∀ t : Fin cfg0.N, win0_7.index t (0 : Fin 2) = 0 ∧ win0_7.index t (1 : Fin 2) = t.val / 16 % 16 :=
  (by decide +kernel : ∀ t : Fin grid0.N, win0_7.index t (0 : Fin 2) = 0 ∧ win0_7.index t (1 : Fin 2) = t.val / 16 % 16)
theorem idx_b8 : ∀ t : Fin cfg0.N, win0_8.index t (0 : Fin 2) = 0 ∧ win0_8.index t (1 : Fin 2) = t.val / 16 % 16 :=
  (by decide +kernel : ∀ t : Fin grid0.N, win0_8.index t (0 : Fin 2) = 0 ∧ win0_8.index t (1 : Fin 2) = t.val / 16 % 16)

theorem idx_s9 : ∀ t : Fin cfg0.N, win0_9.index t (0 : Fin 2) = t.val / 256 ∧ win0_9.index t (1 : Fin 2) = t.val / 16 % 16 :=
  (by decide +kernel : ∀ t : Fin grid0.N, win0_9.index t (0 : Fin 2) = t.val / 256 ∧ win0_9.index t (1 : Fin 2) = t.val / 16 % 16)
theorem idx_s10 : ∀ t : Fin cfg0.N, win0_10.index t (0 : Fin 2) = t.val / 256 ∧ win0_10.index t (1 : Fin 2) = t.val / 16 % 16 :=
  (by decide +kernel : ∀ t : Fin grid0.N, win0_10.index t (0 : Fin 2) = t.val / 256 ∧ win0_10.index t (1 : Fin 2) = t.val / 16 % 16)
theorem idx_s11 : ∀ t : Fin cfg0.N, win0_11.index t (0 : Fin 2) = t.val / 256 ∧ win0_11.index t (1 : Fin 2) = t.val / 16 % 16 :=
  (by decide +kernel : ∀ t : Fin grid0.N, win0_11.index t (0 : Fin 2) = t.val / 256 ∧ win0_11.index t (1 : Fin 2) = t.val / 16 % 16)
theorem idx_s12 : ∀ t : Fin cfg0.N, win0_12.index t (0 : Fin 2) = t.val / 256 ∧ win0_12.index t (1 : Fin 2) = t.val / 16 % 16 :=
  (by decide +kernel : ∀ t : Fin grid0.N, win0_12.index t (0 : Fin 2) = t.val / 256 ∧ win0_12.index t (1 : Fin 2) = t.val / 16 % 16)
theorem idx_s13 : ∀ t : Fin cfg0.N, win0_13.index t (0 : Fin 2) = t.val / 256 ∧ win0_13.index t (1 : Fin 2) = t.val / 16 % 16 :=
  (by decide +kernel : ∀ t : Fin grid0.N, win0_13.index t (0 : Fin 2) = t.val / 256 ∧ win0_13.index t (1 : Fin 2) = t.val / 16 % 16)
theorem idx_s14 : ∀ t : Fin cfg0.N, win0_14.index t (0 : Fin 2) = t.val / 256 ∧ win0_14.index t (1 : Fin 2) = t.val / 16 % 16 :=
  (by decide +kernel : ∀ t : Fin grid0.N, win0_14.index t (0 : Fin 2) = t.val / 256 ∧ win0_14.index t (1 : Fin 2) = t.val / 16 % 16)
theorem idx_s15 : ∀ t : Fin cfg0.N, win0_15.index t (0 : Fin 2) = t.val / 256 ∧ win0_15.index t (1 : Fin 2) = t.val / 16 % 16 :=
  (by decide +kernel : ∀ t : Fin grid0.N, win0_15.index t (0 : Fin 2) = t.val / 256 ∧ win0_15.index t (1 : Fin 2) = t.val / 16 % 16)

/-! ## Entries of the input blocks -/

/-- An entry of the activations' block at point t, in the fused activations. -/
theorem act_entry (c : Dev nD) (t : Fin cfg0.N) (r : Fin 1024) (kk : Fin 512) :
    (iblk m c 0 t : S1024x512.Idx → EReal) (ix2 r kk)
      = nat2 (V m c main_v3 : S4096x8192.Idx → EReal) (1024 * (t.val / 256) + r.val) (512 * (t.val % 16) + kk.val) := by
  obtain ⟨e0, e1⟩ := idx_act t
  unfold iblk
  show (V m c main_v3 : S4096x8192.Idx → EReal) (((cfg0.win 0).blk t).view.emb (ix2 r kk)) = _
  refine (nat2_idx _ _).symm.trans ?_
  have c0 : ((((cfg0.win 0).blk t).view.emb (ix2 r kk)) 0).val = 1024 * (t.val / 256) + r.val := by
    show win0_0.index t (0 : Fin 2) * 1024 + 1 * r.val = _
    rw [e0]; omega
  have c1 : ((((cfg0.win 0).blk t).view.emb (ix2 r kk)) 1).val = 512 * (t.val % 16) + kk.val := by
    show win0_0.index t (1 : Fin 2) * 512 + 1 * kk.val = _
    rw [e1]; omega
  rw [c0, c1]

/-- An entry of weight block 1 at point t, in its fused weight matrix. -/
theorem w1_entry (c : Dev nD) (t : Fin cfg0.N) (kk : Fin 512) (l : Fin 256) :
    (iblk m c 1 t : S512x256.Idx → EReal) (ix2 kk l)
      = nat2 (V m c main_v6 : S8192x4096.Idx → EReal) (512 * (t.val % 16) + kk.val) (256 * (t.val / 16 % 16) + l.val) := by
  obtain ⟨e0, e1⟩ := idx_w1 t
  unfold iblk
  show (V m c main_v6 : S8192x4096.Idx → EReal) (((cfg0.win 1).blk t).view.emb (ix2 kk l)) = _
  refine (nat2_idx _ _).symm.trans ?_
  have c0 : ((((cfg0.win 1).blk t).view.emb (ix2 kk l)) 0).val = 512 * (t.val % 16) + kk.val := by
    show win0_1.index t (0 : Fin 2) * 512 + 1 * kk.val = _
    rw [e0]; omega
  have c1 : ((((cfg0.win 1).blk t).view.emb (ix2 kk l)) 1).val = 256 * (t.val / 16 % 16) + l.val := by
    show win0_1.index t (1 : Fin 2) * 256 + 1 * l.val = _
    rw [e1]; omega
  rw [c0, c1]

/-- An entry of weight block 2 at point t, in its fused weight matrix. -/
theorem w2_entry (c : Dev nD) (t : Fin cfg0.N) (kk : Fin 512) (l : Fin 256) :
    (iblk m c 2 t : S512x256.Idx → EReal) (ix2 kk l)
      = nat2 (V m c main_v9 : S8192x4096.Idx → EReal) (512 * (t.val % 16) + kk.val) (256 * (t.val / 16 % 16) + l.val) := by
  obtain ⟨e0, e1⟩ := idx_w2 t
  unfold iblk
  show (V m c main_v9 : S8192x4096.Idx → EReal) (((cfg0.win 2).blk t).view.emb (ix2 kk l)) = _
  refine (nat2_idx _ _).symm.trans ?_
  have c0 : ((((cfg0.win 2).blk t).view.emb (ix2 kk l)) 0).val = 512 * (t.val % 16) + kk.val := by
    show win0_2.index t (0 : Fin 2) * 512 + 1 * kk.val = _
    rw [e0]; omega
  have c1 : ((((cfg0.win 2).blk t).view.emb (ix2 kk l)) 1).val = 256 * (t.val / 16 % 16) + l.val := by
    show win0_2.index t (1 : Fin 2) * 256 + 1 * l.val = _
    rw [e1]; omega
  rw [c0, c1]

/-- An entry of weight block 3 at point t, in its fused weight matrix. -/
theorem w3_entry (c : Dev nD) (t : Fin cfg0.N) (kk : Fin 512) (l : Fin 256) :
    (iblk m c 3 t : S512x256.Idx → EReal) (ix2 kk l)
      = nat2 (V m c main_v12 : S8192x4096.Idx → EReal) (512 * (t.val % 16) + kk.val) (256 * (t.val / 16 % 16) + l.val) := by
  obtain ⟨e0, e1⟩ := idx_w3 t
  unfold iblk
  show (V m c main_v12 : S8192x4096.Idx → EReal) (((cfg0.win 3).blk t).view.emb (ix2 kk l)) = _
  refine (nat2_idx _ _).symm.trans ?_
  have c0 : ((((cfg0.win 3).blk t).view.emb (ix2 kk l)) 0).val = 512 * (t.val % 16) + kk.val := by
    show win0_3.index t (0 : Fin 2) * 512 + 1 * kk.val = _
    rw [e0]; omega
  have c1 : ((((cfg0.win 3).blk t).view.emb (ix2 kk l)) 1).val = 256 * (t.val / 16 % 16) + l.val := by
    show win0_3.index t (1 : Fin 2) * 256 + 1 * l.val = _
    rw [e1]; omega
  rw [c0, c1]

/-- An entry of weight block 4 at point t, in its fused weight matrix. -/
theorem w4_entry (c : Dev nD) (t : Fin cfg0.N) (kk : Fin 512) (l : Fin 256) :
    (iblk m c 4 t : S512x256.Idx → EReal) (ix2 kk l)
      = nat2 (V m c main_v15 : S8192x4096.Idx → EReal) (512 * (t.val % 16) + kk.val) (256 * (t.val / 16 % 16) + l.val) := by
  obtain ⟨e0, e1⟩ := idx_w4 t
  unfold iblk
  show (V m c main_v15 : S8192x4096.Idx → EReal) (((cfg0.win 4).blk t).view.emb (ix2 kk l)) = _
  refine (nat2_idx _ _).symm.trans ?_
  have c0 : ((((cfg0.win 4).blk t).view.emb (ix2 kk l)) 0).val = 512 * (t.val % 16) + kk.val := by
    show win0_4.index t (0 : Fin 2) * 512 + 1 * kk.val = _
    rw [e0]; omega
  have c1 : ((((cfg0.win 4).blk t).view.emb (ix2 kk l)) 1).val = 256 * (t.val / 16 % 16) + l.val := by
    show win0_4.index t (1 : Fin 2) * 256 + 1 * l.val = _
    rw [e1]; omega
  rw [c0, c1]

/-- The bias row's entry of block 5 at point t is the bias vector's entry of the array's column. -/
theorem b5_entry (c : Dev nD) (t : Fin cfg0.N) (l : Fin 256) (q : Fin 4096) (hq : q.val = 256 * (t.val / 16 % 16) + l.val) :
    (iblk m c 5 t : S1x256.Idx → EReal) (ix2 0 l) = m ((c : Thread nD τ).loc main_arg13) (ix1 q) := by
  obtain ⟨e0, e1⟩ := idx_b5 t
  unfold iblk
  show (V m c main_v16 : S1x4096.Idx → EReal) (((cfg0.win 5).blk t).view.emb (ix2 0 l)) = _
  have ej : ((cfg0.win 5).blk t).view.emb (ix2 (0 : Fin 1) l) = (ix2 (0 : Fin 1) q : S1x4096.Idx) := by
    funext a
    apply Fin.ext
    match a with
    | ⟨0, _⟩ =>
      show win0_5.index t (0 : Fin 2) * 1 + 1 * 0 = 0
      rw [e0]
    | ⟨1, _⟩ =>
      show win0_5.index t (1 : Fin 2) * 256 + 1 * l.val = q.val
      rw [e1, hq]; omega
  rw [ej, V_bi]
  exact row_apply _ q

/-- The bias row's entry of block 6 at point t is the bias vector's entry of the array's column. -/
theorem b6_entry (c : Dev nD) (t : Fin cfg0.N) (l : Fin 256) (q : Fin 4096) (hq : q.val = 256 * (t.val / 16 % 16) + l.val) :
    (iblk m c 6 t : S1x256.Idx → EReal) (ix2 0 l) = m ((c : Thread nD τ).loc main_arg14) (ix1 q) := by
  obtain ⟨e0, e1⟩ := idx_b6 t
  unfold iblk
  show (V m c main_v17 : S1x4096.Idx → EReal) (((cfg0.win 6).blk t).view.emb (ix2 0 l)) = _
  have ej : ((cfg0.win 6).blk t).view.emb (ix2 (0 : Fin 1) l) = (ix2 (0 : Fin 1) q : S1x4096.Idx) := by
    funext a
    apply Fin.ext
    match a with
    | ⟨0, _⟩ =>
      show win0_6.index t (0 : Fin 2) * 1 + 1 * 0 = 0
      rw [e0]
    | ⟨1, _⟩ =>
      show win0_6.index t (1 : Fin 2) * 256 + 1 * l.val = q.val
      rw [e1, hq]; omega
  rw [ej, V_bf]
  exact row_apply _ q

/-- The bias row's entry of block 7 at point t is the bias vector's entry of the array's column. -/
theorem b7_entry (c : Dev nD) (t : Fin cfg0.N) (l : Fin 256) (q : Fin 4096) (hq : q.val = 256 * (t.val / 16 % 16) + l.val) :
    (iblk m c 7 t : S1x256.Idx → EReal) (ix2 0 l) = m ((c : Thread nD τ).loc main_arg15) (ix1 q) := by
  obtain ⟨e0, e1⟩ := idx_b7 t
  unfold iblk
  show (V m c main_v18 : S1x4096.Idx → EReal) (((cfg0.win 7).blk t).view.emb (ix2 0 l)) = _
  have ej : ((cfg0.win 7).blk t).view.emb (ix2 (0 : Fin 1) l) = (ix2 (0 : Fin 1) q : S1x4096.Idx) := by
    funext a
    apply Fin.ext
    match a with
    | ⟨0, _⟩ =>
      show win0_7.index t (0 : Fin 2) * 1 + 1 * 0 = 0
      rw [e0]
    | ⟨1, _⟩ =>
      show win0_7.index t (1 : Fin 2) * 256 + 1 * l.val = q.val
      rw [e1, hq]; omega
  rw [ej, V_bo]
  exact row_apply _ q

/-- The bias row's entry of block 8 at point t is the bias vector's entry of the array's column. -/
theorem b8_entry (c : Dev nD) (t : Fin cfg0.N) (l : Fin 256) (q : Fin 4096) (hq : q.val = 256 * (t.val / 16 % 16) + l.val) :
    (iblk m c 8 t : S1x256.Idx → EReal) (ix2 0 l) = m ((c : Thread nD τ).loc main_arg16) (ix1 q) := by
  obtain ⟨e0, e1⟩ := idx_b8 t
  unfold iblk
  show (V m c main_v19 : S1x4096.Idx → EReal) (((cfg0.win 8).blk t).view.emb (ix2 0 l)) = _
  have ej : ((cfg0.win 8).blk t).view.emb (ix2 (0 : Fin 1) l) = (ix2 (0 : Fin 1) q : S1x4096.Idx) := by
    funext a
    apply Fin.ext
    match a with
    | ⟨0, _⟩ =>
      show win0_8.index t (0 : Fin 2) * 1 + 1 * 0 = 0
      rw [e0]
    | ⟨1, _⟩ =>
      show win0_8.index t (1 : Fin 2) * 256 + 1 * l.val = q.val
      rw [e1, hq]; omega
  rw [ej, V_bc]
  exact row_apply _ q

/-- An entry of old-state block 9 at point t is the argument's entry at the array's index. -/
theorem s9_entry (c : Dev nD) (t : Fin cfg0.N) (j : S1024x256.Idx) (J : S4096x4096.Idx)
    (h0 : (J 0).val = 1024 * (t.val / 256) + (j 0).val) (h1 : (J 1).val = 256 * (t.val / 16 % 16) + (j 1).val) :
    (iblk m c 9 t : S1024x256.Idx → EReal) j = m ((c : Thread nD τ).loc main_arg2) J := by
  obtain ⟨e0, e1⟩ := idx_s9 t
  unfold iblk
  show (V m c main_arg2 : S4096x4096.Idx → EReal) (((cfg0.win 9).blk t).view.emb j) = _
  rw [V_main_arg2]
  refine congrArg _ (funext fun a => Fin.ext ?_)
  match a with
  | ⟨0, _⟩ =>
    show win0_9.index t (0 : Fin 2) * 1024 + 1 * (j 0).val = (J 0).val
    rw [e0, h0]; omega
  | ⟨1, _⟩ =>
    show win0_9.index t (1 : Fin 2) * 256 + 1 * (j 1).val = (J 1).val
    rw [e1, h1]; omega

/-- An entry of old-state block 10 at point t is the argument's entry at the array's index. -/
theorem s10_entry (c : Dev nD) (t : Fin cfg0.N) (j : S1024x256.Idx) (J : S4096x4096.Idx)
    (h0 : (J 0).val = 1024 * (t.val / 256) + (j 0).val) (h1 : (J 1).val = 256 * (t.val / 16 % 16) + (j 1).val) :
    (iblk m c 10 t : S1024x256.Idx → EReal) j = m ((c : Thread nD τ).loc main_arg3) J := by
  obtain ⟨e0, e1⟩ := idx_s10 t
  unfold iblk
  show (V m c main_arg3 : S4096x4096.Idx → EReal) (((cfg0.win 10).blk t).view.emb j) = _
  rw [V_main_arg3]
  refine congrArg _ (funext fun a => Fin.ext ?_)
  match a with
  | ⟨0, _⟩ =>
    show win0_10.index t (0 : Fin 2) * 1024 + 1 * (j 0).val = (J 0).val
    rw [e0, h0]; omega
  | ⟨1, _⟩ =>
    show win0_10.index t (1 : Fin 2) * 256 + 1 * (j 1).val = (J 1).val
    rw [e1, h1]; omega

/-- An entry of old-state block 11 at point t is the argument's entry at the array's index. -/
theorem s11_entry (c : Dev nD) (t : Fin cfg0.N) (j : S1024x256.Idx) (J : S4096x4096.Idx)
    (h0 : (J 0).val = 1024 * (t.val / 256) + (j 0).val) (h1 : (J 1).val = 256 * (t.val / 16 % 16) + (j 1).val) :
    (iblk m c 11 t : S1024x256.Idx → EReal) j = m ((c : Thread nD τ).loc main_arg4) J := by
  obtain ⟨e0, e1⟩ := idx_s11 t
  unfold iblk
  show (V m c main_arg4 : S4096x4096.Idx → EReal) (((cfg0.win 11).blk t).view.emb j) = _
  rw [V_main_arg4]
  refine congrArg _ (funext fun a => Fin.ext ?_)
  match a with
  | ⟨0, _⟩ =>
    show win0_11.index t (0 : Fin 2) * 1024 + 1 * (j 0).val = (J 0).val
    rw [e0, h0]; omega
  | ⟨1, _⟩ =>
    show win0_11.index t (1 : Fin 2) * 256 + 1 * (j 1).val = (J 1).val
    rw [e1, h1]; omega

/-! ## A run's sixteen block products are one contraction over the fused axis -/

theorem run_total (xh : S4096x8192.Idx → EReal) (wg : S8192x4096.Idx → EReal) (xb : ℕ → S1024x512.Idx → EReal)
    (wb : ℕ → S512x256.Idx → EReal) (p q : ℕ) (j : S1024x256.Idx)
    (hx : ∀ k, k < 16 → ∀ kk : Fin 512, xb k (ix2 (j 0) kk) = nat2 xh p (512 * k + kk.val))
    (hw : ∀ k, k < 16 → ∀ kk : Fin 512, wb k (ix2 kk (j 1)) = nat2 wg (512 * k + kk.val) q) :
    (∑ k ∈ Finset.range 16, blockProd (xb k) (wb k)) j = ∑ z : Fin 8192, nat2 xh p z.val * nat2 wg z.val q := by
  rw [Finset.sum_apply, ← sum_blocks (fun z => nat2 xh p z * nat2 wg z q)]
  refine Finset.sum_congr rfl fun k hk => ?_
  have hk' := Finset.mem_range.mp hk
  exact Finset.sum_congr rfl fun kk _ => by rw [hx k hk' kk, hw k hk' kk]

/-- The finished sum of gate i at the last step t of a run. -/
abbrev sumI (c : Dev nD) (t : Fin cfg0.N) : Vec Ideal S1024x256 .f32 := k0_pay17 (iblk m c 0 t) (prev m c t).1 (iblk m c 1 t)
/-- Gate i's bias row at point t. -/
abbrev biasI (c : Dev nD) (t : Fin cfg0.N) : Vec Ideal S1x256 .f32 := iblk m c 5 t
/-- The finished sum of gate f at the last step t of a run. -/
abbrev sumF (c : Dev nD) (t : Fin cfg0.N) : Vec Ideal S1024x256 .f32 := k0_pay18 (iblk m c 0 t) (prev m c t).2.1 (iblk m c 2 t)
/-- Gate f's bias row at point t. -/
abbrev biasF (c : Dev nD) (t : Fin cfg0.N) : Vec Ideal S1x256 .f32 := iblk m c 6 t
/-- The finished sum of gate o at the last step t of a run. -/
abbrev sumO (c : Dev nD) (t : Fin cfg0.N) : Vec Ideal S1024x256 .f32 := k0_pay19 (iblk m c 0 t) (prev m c t).2.2.1 (iblk m c 3 t)
/-- Gate o's bias row at point t. -/
abbrev biasO (c : Dev nD) (t : Fin cfg0.N) : Vec Ideal S1x256 .f32 := iblk m c 7 t
/-- The finished sum of gate c at the last step t of a run. -/
abbrev sumC (c : Dev nD) (t : Fin cfg0.N) : Vec Ideal S1024x256 .f32 := k0_pay1 (k0_pay16 (iblk m c 0 t)) (prev m c t).2.2.2 (iblk m c 4 t)
/-- Gate c's bias row at point t. -/
abbrev biasC (c : Dev nD) (t : Fin cfg0.N) : Vec Ideal S1x256 .f32 := iblk m c 8 t

/-- Gate i: the finished sum plus the bias, at an entry of the block, is the pre-activation at the array's entry. -/
theorem pre_entry_I (c : Dev nD) (t : Fin cfg0.N) (h15 : t.val % 16 = 15) (j : S1024x256.Idx) (J : S4096x4096.Idx)
    (h0 : (J 0).val = 1024 * (t.val / 256) + (j 0).val) (h1 : (J 1).val = 256 * (t.val / 16 % 16) + (j 1).val) :
    sumI m c t j + biasI m c t (ix2 0 (j 1)) = Spec.si (args m c) J := by
  have ht : t.val < 1024 := lt_of_lt_of_eq t.isLt N_eq
  have hsum : sumI m c t j
      = ∑ z : Fin 8192, nat2 (V m c main_v3 : S4096x8192.Idx → EReal) (J 0).val z.val * nat2 (V m c main_v6 : S8192x4096.Idx → EReal) z.val (J 1).val := by
    show (k0_pay17 (iblk m c 0 t) (prev m c t).1 (iblk m c 1 t)) j = _
    rw [doneI m c t h15]
    refine run_total _ _ (fun k => iblk m c 0 (pt (16 * (t.val / 16) + k))) (fun k => iblk m c 1 (pt (16 * (t.val / 16) + k))) _ _ j ?_ ?_
    · intro k hk kk
      have hv : (pt (16 * (t.val / 16) + k)).val = 16 * (t.val / 16) + k := pt_val _ (by omega)
      have ea : 1024 * ((16 * (t.val / 16) + k) / 256) + (j 0).val = 1024 * (t.val / 256) + (j 0).val := by omega
      have eb : 512 * ((16 * (t.val / 16) + k) % 16) + kk.val = 512 * k + kk.val := by omega
      refine (act_entry m c (pt (16 * (t.val / 16) + k)) (j 0) kk).trans ?_
      rw [hv, h0, ea, eb]
    · intro k hk kk
      have hv : (pt (16 * (t.val / 16) + k)).val = 16 * (t.val / 16) + k := pt_val _ (by omega)
      have ea : 512 * ((16 * (t.val / 16) + k) % 16) + kk.val = 512 * k + kk.val := by omega
      have eb : 256 * ((16 * (t.val / 16) + k) / 16 % 16) + (j 1).val = 256 * (t.val / 16 % 16) + (j 1).val := by omega
      refine (w1_entry m c (pt (16 * (t.val / 16) + k)) kk (j 1)).trans ?_
      rw [hv, h1, ea, eb]
  have hb : biasI m c t (ix2 0 (j 1)) = m ((c : Thread nD τ).loc main_arg13) (ix1 (J 1)) :=
    b5_entry m c t (j 1) (J 1) h1
  rw [hsum, hb, V_act, V_wi, fused_contraction _ _ _ _ (J 0) (J 1)]
  unfold Spec.si Spec.pre args
  refine congrArg (· + _) (congrArg (_ + ·) (Finset.sum_congr rfl fun k _ => ?_))
  exact congrArg (· * _) (hT_apply m c (J 0) k)

/-- Gate f: the finished sum plus the bias, at an entry of the block, is the pre-activation at the array's entry. -/
theorem pre_entry_F (c : Dev nD) (t : Fin cfg0.N) (h15 : t.val % 16 = 15) (j : S1024x256.Idx) (J : S4096x4096.Idx)
    (h0 : (J 0).val = 1024 * (t.val / 256) + (j 0).val) (h1 : (J 1).val = 256 * (t.val / 16 % 16) + (j 1).val) :
    sumF m c t j + biasF m c t (ix2 0 (j 1)) = Spec.sf (args m c) J := by
  have ht : t.val < 1024 := lt_of_lt_of_eq t.isLt N_eq
  have hsum : sumF m c t j
      = ∑ z : Fin 8192, nat2 (V m c main_v3 : S4096x8192.Idx → EReal) (J 0).val z.val * nat2 (V m c main_v9 : S8192x4096.Idx → EReal) z.val (J 1).val := by
    show (k0_pay18 (iblk m c 0 t) (prev m c t).2.1 (iblk m c 2 t)) j = _
    rw [doneF m c t h15]
    refine run_total _ _ (fun k => iblk m c 0 (pt (16 * (t.val / 16) + k))) (fun k => iblk m c 2 (pt (16 * (t.val / 16) + k))) _ _ j ?_ ?_
    · intro k hk kk
      have hv : (pt (16 * (t.val / 16) + k)).val = 16 * (t.val / 16) + k := pt_val _ (by omega)
      have ea : 1024 * ((16 * (t.val / 16) + k) / 256) + (j 0).val = 1024 * (t.val / 256) + (j 0).val := by omega
      have eb : 512 * ((16 * (t.val / 16) + k) % 16) + kk.val = 512 * k + kk.val := by omega
      refine (act_entry m c (pt (16 * (t.val / 16) + k)) (j 0) kk).trans ?_
      rw [hv, h0, ea, eb]
    · intro k hk kk
      have hv : (pt (16 * (t.val / 16) + k)).val = 16 * (t.val / 16) + k := pt_val _ (by omega)
      have ea : 512 * ((16 * (t.val / 16) + k) % 16) + kk.val = 512 * k + kk.val := by omega
      have eb : 256 * ((16 * (t.val / 16) + k) / 16 % 16) + (j 1).val = 256 * (t.val / 16 % 16) + (j 1).val := by omega
      refine (w2_entry m c (pt (16 * (t.val / 16) + k)) kk (j 1)).trans ?_
      rw [hv, h1, ea, eb]
  have hb : biasF m c t (ix2 0 (j 1)) = m ((c : Thread nD τ).loc main_arg14) (ix1 (J 1)) :=
    b6_entry m c t (j 1) (J 1) h1
  rw [hsum, hb, V_act, V_wf, fused_contraction _ _ _ _ (J 0) (J 1)]
  unfold Spec.sf Spec.pre args
  refine congrArg (· + _) (congrArg (_ + ·) (Finset.sum_congr rfl fun k _ => ?_))
  exact congrArg (· * _) (hT_apply m c (J 0) k)

/-- Gate o: the finished sum plus the bias, at an entry of the block, is the pre-activation at the array's entry. -/
theorem pre_entry_O (c : Dev nD) (t : Fin cfg0.N) (h15 : t.val % 16 = 15) (j : S1024x256.Idx) (J : S4096x4096.Idx)
    (h0 : (J 0).val = 1024 * (t.val / 256) + (j 0).val) (h1 : (J 1).val = 256 * (t.val / 16 % 16) + (j 1).val) :
    sumO m c t j + biasO m c t (ix2 0 (j 1)) = Spec.so (args m c) J := by
  have ht : t.val < 1024 := lt_of_lt_of_eq t.isLt N_eq
  have hsum : sumO m c t j
      = ∑ z : Fin 8192, nat2 (V m c main_v3 : S4096x8192.Idx → EReal) (J 0).val z.val * nat2 (V m c main_v12 : S8192x4096.Idx → EReal) z.val (J 1).val := by
    show (k0_pay19 (iblk m c 0 t) (prev m c t).2.2.1 (iblk m c 3 t)) j = _
    rw [doneO m c t h15]
    refine run_total _ _ (fun k => iblk m c 0 (pt (16 * (t.val / 16) + k))) (fun k => iblk m c 3 (pt (16 * (t.val / 16) + k))) _ _ j ?_ ?_
    · intro k hk kk
      have hv : (pt (16 * (t.val / 16) + k)).val = 16 * (t.val / 16) + k := pt_val _ (by omega)
      have ea : 1024 * ((16 * (t.val / 16) + k) / 256) + (j 0).val = 1024 * (t.val / 256) + (j 0).val := by omega
      have eb : 512 * ((16 * (t.val / 16) + k) % 16) + kk.val = 512 * k + kk.val := by omega
      refine (act_entry m c (pt (16 * (t.val / 16) + k)) (j 0) kk).trans ?_
      rw [hv, h0, ea, eb]
    · intro k hk kk
      have hv : (pt (16 * (t.val / 16) + k)).val = 16 * (t.val / 16) + k := pt_val _ (by omega)
      have ea : 512 * ((16 * (t.val / 16) + k) % 16) + kk.val = 512 * k + kk.val := by omega
      have eb : 256 * ((16 * (t.val / 16) + k) / 16 % 16) + (j 1).val = 256 * (t.val / 16 % 16) + (j 1).val := by omega
      refine (w3_entry m c (pt (16 * (t.val / 16) + k)) kk (j 1)).trans ?_
      rw [hv, h1, ea, eb]
  have hb : biasO m c t (ix2 0 (j 1)) = m ((c : Thread nD τ).loc main_arg15) (ix1 (J 1)) :=
    b7_entry m c t (j 1) (J 1) h1
  rw [hsum, hb, V_act, V_wo, fused_contraction _ _ _ _ (J 0) (J 1)]
  unfold Spec.so Spec.pre args
  refine congrArg (· + _) (congrArg (_ + ·) (Finset.sum_congr rfl fun k _ => ?_))
  exact congrArg (· * _) (hT_apply m c (J 0) k)

/-- Gate c: the finished sum plus the bias, at an entry of the block, is the pre-activation at the array's entry. -/
theorem pre_entry_C (c : Dev nD) (t : Fin cfg0.N) (h15 : t.val % 16 = 15) (j : S1024x256.Idx) (J : S4096x4096.Idx)
    (h0 : (J 0).val = 1024 * (t.val / 256) + (j 0).val) (h1 : (J 1).val = 256 * (t.val / 16 % 16) + (j 1).val) :
    sumC m c t j + biasC m c t (ix2 0 (j 1)) = Spec.sc (args m c) J := by
  have ht : t.val < 1024 := lt_of_lt_of_eq t.isLt N_eq
  have hsum : sumC m c t j
      = ∑ z : Fin 8192, nat2 (V m c main_v3 : S4096x8192.Idx → EReal) (J 0).val z.val * nat2 (V m c main_v15 : S8192x4096.Idx → EReal) z.val (J 1).val := by
    show (k0_pay1 (k0_pay16 (iblk m c 0 t)) (prev m c t).2.2.2 (iblk m c 4 t)) j = _
    rw [doneC m c t h15]
    refine run_total _ _ (fun k => iblk m c 0 (pt (16 * (t.val / 16) + k))) (fun k => iblk m c 4 (pt (16 * (t.val / 16) + k))) _ _ j ?_ ?_
    · intro k hk kk
      have hv : (pt (16 * (t.val / 16) + k)).val = 16 * (t.val / 16) + k := pt_val _ (by omega)
      have ea : 1024 * ((16 * (t.val / 16) + k) / 256) + (j 0).val = 1024 * (t.val / 256) + (j 0).val := by omega
      have eb : 512 * ((16 * (t.val / 16) + k) % 16) + kk.val = 512 * k + kk.val := by omega
      refine (act_entry m c (pt (16 * (t.val / 16) + k)) (j 0) kk).trans ?_
      rw [hv, h0, ea, eb]
    · intro k hk kk
      have hv : (pt (16 * (t.val / 16) + k)).val = 16 * (t.val / 16) + k := pt_val _ (by omega)
      have ea : 512 * ((16 * (t.val / 16) + k) % 16) + kk.val = 512 * k + kk.val := by omega
      have eb : 256 * ((16 * (t.val / 16) + k) / 16 % 16) + (j 1).val = 256 * (t.val / 16 % 16) + (j 1).val := by omega
      refine (w4_entry m c (pt (16 * (t.val / 16) + k)) kk (j 1)).trans ?_
      rw [hv, h1, ea, eb]
  have hb : biasC m c t (ix2 0 (j 1)) = m ((c : Thread nD τ).loc main_arg16) (ix1 (J 1)) :=
    b8_entry m c t (j 1) (J 1) h1
  rw [hsum, hb, V_act, V_wc, fused_contraction _ _ _ _ (J 0) (J 1)]
  unfold Spec.sc Spec.pre args
  refine congrArg (· + _) (congrArg (_ + ·) (Finset.sum_congr rfl fun k _ => ?_))
  exact congrArg (· * _) (hT_apply m c (J 0) k)

/-! ## The four results at an entry of a run's last block -/

theorem results_entry (c : Dev nD) (t : Fin cfg0.N) (h15 : t.val % 16 = 15) (j : S1024x256.Idx) (J : S4096x4096.Idx)
    (h0 : (J 0).val = 1024 * (t.val / 256) + (j 0).val) (h1 : (J 1).val = 256 * (t.val / 16 % 16) + (j 1).val) :
    (outsAt0 m c t.val t.isLt).1 j = Spec.outH (args m c) J
    ∧ (outsAt0 m c t.val t.isLt).2.1 j = Spec.outC (args m c) J
    ∧ (outsAt0 m c t.val t.isLt).2.2.1 j = Spec.outM (args m c) J
    ∧ (outsAt0 m c t.val t.isLt).2.2.2 j = Spec.outN (args m c) J := by
  have ei := pre_entry_I m c t h15 j J h0 h1
  have ef := pre_entry_F m c t h15 j J h0 h1
  have eo := pre_entry_O m c t h15 j J h0 h1
  have ec := pre_entry_C m c t h15 j J h0 h1
  have em : (iblk m c 10 t : S1024x256.Idx → EReal) j = (args m c).m J := s10_entry m c t j J h0 h1
  have ecs : (iblk m c 9 t : S1024x256.Idx → EReal) j = (args m c).c J := s9_entry m c t j J h0 h1
  have en : (iblk m c 11 t : S1024x256.Idx → EReal) j = (args m c).n J := s11_entry m c t j J h0 h1
  have hC := outs_C m c t (by omega) h15
  have r0 : (outsAt0 m c t.val t.isLt).1 j = Spec.outH (args m c) J := by
    rw [hC]
    refine (epi_h (sumI m c t) (biasI m c t) (sumF m c t) (biasF m c t) (sumO m c t) (biasO m c t) (sumC m c t) (biasC m c t) (iblk m c 10 t) (iblk m c 9 t) (iblk m c 11 t) j).trans ?_
    rw [ei, ef, eo, ec, em, ecs, en]
    rfl
  have r1 : (outsAt0 m c t.val t.isLt).2.1 j = Spec.outC (args m c) J := by
    rw [hC]
    refine (epi_c (sumI m c t) (biasI m c t) (sumF m c t) (biasF m c t) (sumC m c t) (biasC m c t) (iblk m c 10 t) (iblk m c 9 t) j).trans ?_
    rw [ei, ef, ec, em, ecs]
    rfl
  have r2 : (outsAt0 m c t.val t.isLt).2.2.1 j = Spec.outM (args m c) J := by
    rw [hC]
    refine (epi_m (sumI m c t) (biasI m c t) (sumF m c t) (biasF m c t) (iblk m c 10 t) j).trans ?_
    rw [ei, ef, em]
    rfl
  have r3 : (outsAt0 m c t.val t.isLt).2.2.2 j = Spec.outN (args m c) J := by
    rw [hC]
    refine (epi_n (sumI m c t) (biasI m c t) (sumF m c t) (biasF m c t) (iblk m c 10 t) (iblk m c 11 t) j).trans ?_
    rw [ei, ef, em, en]
    rfl
  exact ⟨r0, r1, r2, r3⟩

/-! ### Result array 0 -/

/-- The write-back after the last step of a run writes the block of the specification's array. -/
theorem flushed12_eq (c : Dev nD) (t : Fin cfg0.N) (hf : (cfg0.win 12).flush t = true) :
    (dats m 0 c).flushed 12 t = ((cfg0.win 12).blk t).view.read (Elt Ideal) (Spec.outH (args m c)) := by
  have h15 : t.val % 16 = 15 := (flush0_12 t).mp hf
  obtain ⟨e0, e1⟩ := idx_s12 t
  rw [Value.flushed12]
  funext j
  show (outsAt0 m c t.val t.isLt).1 j = Spec.outH (args m c) (((cfg0.win 12).blk t).view.emb j)
  have r := results_entry m c t h15 j (((cfg0.win 12).blk t).view.emb j)
    (by show win0_12.index t (0 : Fin 2) * 1024 + 1 * (j 0).val = _; rw [e0]; omega)
    (by show win0_12.index t (1 : Fin 2) * 256 + 1 * (j 1).val = _; rw [e1]; omega)
  exact r.1

/-- An index of the array is in point t's block when each coordinate is in the block's range. -/
theorem mem_blk12 (t : Fin cfg0.N) (i : S4096x4096.Idx) :
    i ∈ ((cfg0.win 12).blk t).view.set ↔ ∀ a : Fin 2, win0_12.index t a * S1024x256.size a ≤ (i a).val ∧ (i a).val < win0_12.index t a * S1024x256.size a + S1024x256.size a := by
  show i ∈ ((View.whole main_v20_0).slice (win0_12.rect t)).set ↔ _
  rw [View.set_slice_whole, Rect.mem_set_unit]
  exact Iff.rfl

/-- Every index of the array lies in the block some run writes back at its last step. -/
theorem cover12 (i : S4096x4096.Idx) :
    ∃ t : Fin cfg0.N, (cfg0.win 12).flush t = true ∧ i ∈ ((cfg0.win 12).blk t).view.set := by
  have hi0 : (i 0).val < 4096 := (i 0).isLt
  have hi1 : (i 1).val < 4096 := (i 1).isLt
  have hlt : 256 * ((i 0).val / 1024) + 16 * ((i 1).val / 256) + 15 < cfg0.N := by rw [N_eq]; omega
  refine ⟨⟨256 * ((i 0).val / 1024) + 16 * ((i 1).val / 256) + 15, hlt⟩, (flush0_12 _).mpr (by show (256 * ((i 0).val / 1024) + 16 * ((i 1).val / 256) + 15) % 16 = 15; omega), ?_⟩
  obtain ⟨e0, e1⟩ := idx_s12 ⟨256 * ((i 0).val / 1024) + 16 * ((i 1).val / 256) + 15, hlt⟩
  rw [mem_blk12]
  intro a
  match a with
  | ⟨0, _⟩ =>
    show win0_12.index _ (0 : Fin 2) * 1024 ≤ (i 0).val ∧ (i 0).val < win0_12.index _ (0 : Fin 2) * 1024 + 1024
    rw [e0]
    show (256 * ((i 0).val / 1024) + 16 * ((i 1).val / 256) + 15) / 256 * 1024 ≤ (i 0).val ∧ (i 0).val < (256 * ((i 0).val / 1024) + 16 * ((i 1).val / 256) + 15) / 256 * 1024 + 1024
    omega
  | ⟨1, _⟩ =>
    show win0_12.index _ (1 : Fin 2) * 256 ≤ (i 1).val ∧ (i 1).val < win0_12.index _ (1 : Fin 2) * 256 + 256
    rw [e1]
    show (256 * ((i 0).val / 1024) + 16 * ((i 1).val / 256) + 15) / 16 % 16 * 256 ≤ (i 1).val ∧ (i 1).val < (256 * ((i 0).val / 1024) + 16 * ((i 1).val / 256) + 15) / 16 % 16 * 256 + 256
    omega

/-- After the run the array is the specification's. -/
theorem final12 (c : Dev nD) : (dats m 0 c).arrAt 12 cfg0.N = Spec.outH (args m c) :=
  (dats m 0 c).arrAt_eq_of_cover 12 (Spec.outH (args m c)) (flushed12_eq m c) cover12

/-! ### Result array 1 -/

/-- The write-back after the last step of a run writes the block of the specification's array. -/
theorem flushed13_eq (c : Dev nD) (t : Fin cfg0.N) (hf : (cfg0.win 13).flush t = true) :
    (dats m 0 c).flushed 13 t = ((cfg0.win 13).blk t).view.read (Elt Ideal) (Spec.outC (args m c)) := by
  have h15 : t.val % 16 = 15 := (flush0_13 t).mp hf
  obtain ⟨e0, e1⟩ := idx_s13 t
  rw [Value.flushed13]
  funext j
  show (outsAt0 m c t.val t.isLt).2.1 j = Spec.outC (args m c) (((cfg0.win 13).blk t).view.emb j)
  have r := results_entry m c t h15 j (((cfg0.win 13).blk t).view.emb j)
    (by show win0_13.index t (0 : Fin 2) * 1024 + 1 * (j 0).val = _; rw [e0]; omega)
    (by show win0_13.index t (1 : Fin 2) * 256 + 1 * (j 1).val = _; rw [e1]; omega)
  exact r.2.1

/-- An index of the array is in point t's block when each coordinate is in the block's range. -/
theorem mem_blk13 (t : Fin cfg0.N) (i : S4096x4096.Idx) :
    i ∈ ((cfg0.win 13).blk t).view.set ↔ ∀ a : Fin 2, win0_13.index t a * S1024x256.size a ≤ (i a).val ∧ (i a).val < win0_13.index t a * S1024x256.size a + S1024x256.size a := by
  show i ∈ ((View.whole main_v20_1).slice (win0_13.rect t)).set ↔ _
  rw [View.set_slice_whole, Rect.mem_set_unit]
  exact Iff.rfl

/-- Every index of the array lies in the block some run writes back at its last step. -/
theorem cover13 (i : S4096x4096.Idx) :
    ∃ t : Fin cfg0.N, (cfg0.win 13).flush t = true ∧ i ∈ ((cfg0.win 13).blk t).view.set := by
  have hi0 : (i 0).val < 4096 := (i 0).isLt
  have hi1 : (i 1).val < 4096 := (i 1).isLt
  have hlt : 256 * ((i 0).val / 1024) + 16 * ((i 1).val / 256) + 15 < cfg0.N := by rw [N_eq]; omega
  refine ⟨⟨256 * ((i 0).val / 1024) + 16 * ((i 1).val / 256) + 15, hlt⟩, (flush0_13 _).mpr (by show (256 * ((i 0).val / 1024) + 16 * ((i 1).val / 256) + 15) % 16 = 15; omega), ?_⟩
  obtain ⟨e0, e1⟩ := idx_s13 ⟨256 * ((i 0).val / 1024) + 16 * ((i 1).val / 256) + 15, hlt⟩
  rw [mem_blk13]
  intro a
  match a with
  | ⟨0, _⟩ =>
    show win0_13.index _ (0 : Fin 2) * 1024 ≤ (i 0).val ∧ (i 0).val < win0_13.index _ (0 : Fin 2) * 1024 + 1024
    rw [e0]
    show (256 * ((i 0).val / 1024) + 16 * ((i 1).val / 256) + 15) / 256 * 1024 ≤ (i 0).val ∧ (i 0).val < (256 * ((i 0).val / 1024) + 16 * ((i 1).val / 256) + 15) / 256 * 1024 + 1024
    omega
  | ⟨1, _⟩ =>
    show win0_13.index _ (1 : Fin 2) * 256 ≤ (i 1).val ∧ (i 1).val < win0_13.index _ (1 : Fin 2) * 256 + 256
    rw [e1]
    show (256 * ((i 0).val / 1024) + 16 * ((i 1).val / 256) + 15) / 16 % 16 * 256 ≤ (i 1).val ∧ (i 1).val < (256 * ((i 0).val / 1024) + 16 * ((i 1).val / 256) + 15) / 16 % 16 * 256 + 256
    omega

/-- After the run the array is the specification's. -/
theorem final13 (c : Dev nD) : (dats m 0 c).arrAt 13 cfg0.N = Spec.outC (args m c) :=
  (dats m 0 c).arrAt_eq_of_cover 13 (Spec.outC (args m c)) (flushed13_eq m c) cover13

/-! ### Result array 2 -/

/-- The write-back after the last step of a run writes the block of the specification's array. -/
theorem flushed14_eq (c : Dev nD) (t : Fin cfg0.N) (hf : (cfg0.win 14).flush t = true) :
    (dats m 0 c).flushed 14 t = ((cfg0.win 14).blk t).view.read (Elt Ideal) (Spec.outM (args m c)) := by
  have h15 : t.val % 16 = 15 := (flush0_14 t).mp hf
  obtain ⟨e0, e1⟩ := idx_s14 t
  rw [Value.flushed14]
  funext j
  show (outsAt0 m c t.val t.isLt).2.2.1 j = Spec.outM (args m c) (((cfg0.win 14).blk t).view.emb j)
  have r := results_entry m c t h15 j (((cfg0.win 14).blk t).view.emb j)
    (by show win0_14.index t (0 : Fin 2) * 1024 + 1 * (j 0).val = _; rw [e0]; omega)
    (by show win0_14.index t (1 : Fin 2) * 256 + 1 * (j 1).val = _; rw [e1]; omega)
  exact r.2.2.1

/-- An index of the array is in point t's block when each coordinate is in the block's range. -/
theorem mem_blk14 (t : Fin cfg0.N) (i : S4096x4096.Idx) :
    i ∈ ((cfg0.win 14).blk t).view.set ↔ ∀ a : Fin 2, win0_14.index t a * S1024x256.size a ≤ (i a).val ∧ (i a).val < win0_14.index t a * S1024x256.size a + S1024x256.size a := by
  show i ∈ ((View.whole main_v20_2).slice (win0_14.rect t)).set ↔ _
  rw [View.set_slice_whole, Rect.mem_set_unit]
  exact Iff.rfl

/-- Every index of the array lies in the block some run writes back at its last step. -/
theorem cover14 (i : S4096x4096.Idx) :
    ∃ t : Fin cfg0.N, (cfg0.win 14).flush t = true ∧ i ∈ ((cfg0.win 14).blk t).view.set := by
  have hi0 : (i 0).val < 4096 := (i 0).isLt
  have hi1 : (i 1).val < 4096 := (i 1).isLt
  have hlt : 256 * ((i 0).val / 1024) + 16 * ((i 1).val / 256) + 15 < cfg0.N := by rw [N_eq]; omega
  refine ⟨⟨256 * ((i 0).val / 1024) + 16 * ((i 1).val / 256) + 15, hlt⟩, (flush0_14 _).mpr (by show (256 * ((i 0).val / 1024) + 16 * ((i 1).val / 256) + 15) % 16 = 15; omega), ?_⟩
  obtain ⟨e0, e1⟩ := idx_s14 ⟨256 * ((i 0).val / 1024) + 16 * ((i 1).val / 256) + 15, hlt⟩
  rw [mem_blk14]
  intro a
  match a with
  | ⟨0, _⟩ =>
    show win0_14.index _ (0 : Fin 2) * 1024 ≤ (i 0).val ∧ (i 0).val < win0_14.index _ (0 : Fin 2) * 1024 + 1024
    rw [e0]
    show (256 * ((i 0).val / 1024) + 16 * ((i 1).val / 256) + 15) / 256 * 1024 ≤ (i 0).val ∧ (i 0).val < (256 * ((i 0).val / 1024) + 16 * ((i 1).val / 256) + 15) / 256 * 1024 + 1024
    omega
  | ⟨1, _⟩ =>
    show win0_14.index _ (1 : Fin 2) * 256 ≤ (i 1).val ∧ (i 1).val < win0_14.index _ (1 : Fin 2) * 256 + 256
    rw [e1]
    show (256 * ((i 0).val / 1024) + 16 * ((i 1).val / 256) + 15) / 16 % 16 * 256 ≤ (i 1).val ∧ (i 1).val < (256 * ((i 0).val / 1024) + 16 * ((i 1).val / 256) + 15) / 16 % 16 * 256 + 256
    omega

/-- After the run the array is the specification's. -/
theorem final14 (c : Dev nD) : (dats m 0 c).arrAt 14 cfg0.N = Spec.outM (args m c) :=
  (dats m 0 c).arrAt_eq_of_cover 14 (Spec.outM (args m c)) (flushed14_eq m c) cover14

/-! ### Result array 3 -/

/-- The write-back after the last step of a run writes the block of the specification's array. -/
theorem flushed15_eq (c : Dev nD) (t : Fin cfg0.N) (hf : (cfg0.win 15).flush t = true) :
    (dats m 0 c).flushed 15 t = ((cfg0.win 15).blk t).view.read (Elt Ideal) (Spec.outN (args m c)) := by
  have h15 : t.val % 16 = 15 := (flush0_15 t).mp hf
  obtain ⟨e0, e1⟩ := idx_s15 t
  rw [Value.flushed15]
  funext j
  show (outsAt0 m c t.val t.isLt).2.2.2 j = Spec.outN (args m c) (((cfg0.win 15).blk t).view.emb j)
  have r := results_entry m c t h15 j (((cfg0.win 15).blk t).view.emb j)
    (by show win0_15.index t (0 : Fin 2) * 1024 + 1 * (j 0).val = _; rw [e0]; omega)
    (by show win0_15.index t (1 : Fin 2) * 256 + 1 * (j 1).val = _; rw [e1]; omega)
  exact r.2.2.2

/-- An index of the array is in point t's block when each coordinate is in the block's range. -/
theorem mem_blk15 (t : Fin cfg0.N) (i : S4096x4096.Idx) :
    i ∈ ((cfg0.win 15).blk t).view.set ↔ ∀ a : Fin 2, win0_15.index t a * S1024x256.size a ≤ (i a).val ∧ (i a).val < win0_15.index t a * S1024x256.size a + S1024x256.size a := by
  show i ∈ ((View.whole main_v20_3).slice (win0_15.rect t)).set ↔ _
  rw [View.set_slice_whole, Rect.mem_set_unit]
  exact Iff.rfl

/-- Every index of the array lies in the block some run writes back at its last step. -/
theorem cover15 (i : S4096x4096.Idx) :
    ∃ t : Fin cfg0.N, (cfg0.win 15).flush t = true ∧ i ∈ ((cfg0.win 15).blk t).view.set := by
  have hi0 : (i 0).val < 4096 := (i 0).isLt
  have hi1 : (i 1).val < 4096 := (i 1).isLt
  have hlt : 256 * ((i 0).val / 1024) + 16 * ((i 1).val / 256) + 15 < cfg0.N := by rw [N_eq]; omega
  refine ⟨⟨256 * ((i 0).val / 1024) + 16 * ((i 1).val / 256) + 15, hlt⟩, (flush0_15 _).mpr (by show (256 * ((i 0).val / 1024) + 16 * ((i 1).val / 256) + 15) % 16 = 15; omega), ?_⟩
  obtain ⟨e0, e1⟩ := idx_s15 ⟨256 * ((i 0).val / 1024) + 16 * ((i 1).val / 256) + 15, hlt⟩
  rw [mem_blk15]
  intro a
  match a with
  | ⟨0, _⟩ =>
    show win0_15.index _ (0 : Fin 2) * 1024 ≤ (i 0).val ∧ (i 0).val < win0_15.index _ (0 : Fin 2) * 1024 + 1024
    rw [e0]
    show (256 * ((i 0).val / 1024) + 16 * ((i 1).val / 256) + 15) / 256 * 1024 ≤ (i 0).val ∧ (i 0).val < (256 * ((i 0).val / 1024) + 16 * ((i 1).val / 256) + 15) / 256 * 1024 + 1024
    omega
  | ⟨1, _⟩ =>
    show win0_15.index _ (1 : Fin 2) * 256 ≤ (i 1).val ∧ (i 1).val < win0_15.index _ (1 : Fin 2) * 256 + 256
    rw [e1]
    show (256 * ((i 0).val / 1024) + 16 * ((i 1).val / 256) + 15) / 16 % 16 * 256 ≤ (i 1).val ∧ (i 1).val < (256 * ((i 0).val / 1024) + 16 * ((i 1).val / 256) + 15) / 16 % 16 * 256 + 256
    omega

/-- After the run the array is the specification's. -/
theorem final15 (c : Dev nD) : (dats m 0 c).arrAt 15 cfg0.N = Spec.outN (args m c) :=
  (dats m 0 c).arrAt_eq_of_cover 15 (Spec.outN (args m c)) (flushed15_eq m c) cover15

/-! ## The run, read -/

/-- Every weakly fair execution of the program ends with its four result arrays at the specification's arrays of its
    arguments, and the arguments unchanged. -/
theorem run : θ_run defs (onTc (τ := τ) (main (F := Ideal))) ⟨m, fun _ => 0, ρ⟩ fun r => ∀ c : Dev nD,
      r.2.mem ((c : Thread nD τ).loc main_v20_0) = Spec.outH (args m c)
      ∧ r.2.mem ((c : Thread nD τ).loc main_v20_1) = Spec.outC (args m c)
      ∧ r.2.mem ((c : Thread nD τ).loc main_v20_2) = Spec.outM (args m c)
      ∧ r.2.mem ((c : Thread nD τ).loc main_v20_3) = Spec.outN (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final12 m c), (h c).2.1.trans (final13 m c),
      (h c).2.2.1.trans (final14 m c), (h c).2.2.2.1.trans (final15 m c), (h c).2.2.2.2⟩)
    (Value.run_blocks m ρ)

end Cert.KernelIdeal.Final

end
-- ==== Proof.RefValue.lean ====
/-
  The reference program computes the specification's four arrays, when its arguments have real entries.

  Stage by stage and entry by entry: two matrix products and a bias row make each gate's pre-activation; the input and
  forget gates go through exp and are read back through log (the identity on the extended reals); the forget gate's
  stabilized form adds and subtracts the new stabilizer state (which cancels because that state is a real number); the
  output gate's logistic function is spelled 1 / (1 + exp (-s)).
-/
import proofs.«147322_j14903536517286_2_alg».proof.Proof.Gen.ReferenceIdeal.Read
import proofs.«147322_j14903536517286_2_alg».proof.Proof.Spec

noncomputable section

open scoped BigOperators

namespace Cert.ReferenceIdeal.RefValue

open Cert.ReferenceIdeal Cert.ReferenceIdeal.Read Idealize.ShloMosaic Idealize.ShloMosaic.ValueIdx Cert.Spec Cert.LibMoments

/-- The reference's pre-activation of gate i is the specification's. -/
theorem gate_i (A : Args) (i : S4096x4096.Idx) : val_main_v6 (F := Ideal) A.x A.h A.wi A.ui A.bi i = Spec.si A i := by
  rw [val_main_v6_apply, val_main_v3_apply, val_main_v1_apply, val_main_v2_apply, val_main_v5_apply, val_main_v4_apply]
  simp only [val_main_v0_apply]
  have l1 : ∀ k, lidx_main_v1 i k = ix2 (i 0) k := fun k => funext fun a => by
    match a with
    | ⟨0, _⟩ => rfl
    | ⟨1, _⟩ => rfl
  have r1 : ∀ k, ridx_main_v1 i k = ix2 k (i 1) := fun k => funext fun a => by
    match a with
    | ⟨0, _⟩ => rfl
    | ⟨1, _⟩ => rfl
  have l2 : ∀ k, idx_main_v0 (lidx_main_v2 i k) = ix2 k (i 0) := fun k => funext fun a => by
    match a with
    | ⟨0, _⟩ => rfl
    | ⟨1, _⟩ => rfl
  have r2 : ∀ k, ridx_main_v2 i k = ix2 k (i 1) := fun k => funext fun a => by
    match a with
    | ⟨0, _⟩ => rfl
    | ⟨1, _⟩ => rfl
  have bb : idx_main_v4 (idx_main_v5 i) = ix1 (i 1) := funext fun a => by
    match a with
    | ⟨0, _⟩ => rfl
  simp only [l1, r1, l2, r2, bb]
  rfl

/-- The reference's pre-activation of gate f is the specification's. -/
theorem gate_f (A : Args) (i : S4096x4096.Idx) : val_main_v13 (F := Ideal) A.x A.h A.wf A.uf A.bf i = Spec.sf A i := by
  rw [val_main_v13_apply, val_main_v10_apply, val_main_v8_apply, val_main_v9_apply, val_main_v12_apply, val_main_v11_apply]
  simp only [val_main_v0_apply]
  have l1 : ∀ k, lidx_main_v8 i k = ix2 (i 0) k := fun k => funext fun a => by
    match a with
    | ⟨0, _⟩ => rfl
    | ⟨1, _⟩ => rfl
  have r1 : ∀ k, ridx_main_v8 i k = ix2 k (i 1) := fun k => funext fun a => by
    match a with
    | ⟨0, _⟩ => rfl
    | ⟨1, _⟩ => rfl
  have l2 : ∀ k, idx_main_v0 (lidx_main_v9 i k) = ix2 k (i 0) := fun k => funext fun a => by
    match a with
    | ⟨0, _⟩ => rfl
    | ⟨1, _⟩ => rfl
  have r2 : ∀ k, ridx_main_v9 i k = ix2 k (i 1) := fun k => funext fun a => by
    match a with
    | ⟨0, _⟩ => rfl
    | ⟨1, _⟩ => rfl
  have bb : idx_main_v11 (idx_main_v12 i) = ix1 (i 1) := funext fun a => by
    match a with
    | ⟨0, _⟩ => rfl
  simp only [l1, r1, l2, r2, bb]
  rfl

/-- The reference's pre-activation of gate o is the specification's. -/
theorem gate_o (A : Args) (i : S4096x4096.Idx) : val_main_v31 (F := Ideal) A.x A.h A.wo A.uo A.bo i = Spec.so A i := by
  rw [val_main_v31_apply, val_main_v28_apply, val_main_v26_apply, val_main_v27_apply, val_main_v30_apply, val_main_v29_apply]
  simp only [val_main_v0_apply]
  have l1 : ∀ k, lidx_main_v26 i k = ix2 (i 0) k := fun k => funext fun a => by
    match a with
    | ⟨0, _⟩ => rfl
    | ⟨1, _⟩ => rfl
  have r1 : ∀ k, ridx_main_v26 i k = ix2 k (i 1) := fun k => funext fun a => by
    match a with
    | ⟨0, _⟩ => rfl
    | ⟨1, _⟩ => rfl
  have l2 : ∀ k, idx_main_v0 (lidx_main_v27 i k) = ix2 k (i 0) := fun k => funext fun a => by
    match a with
    | ⟨0, _⟩ => rfl
    | ⟨1, _⟩ => rfl
  have r2 : ∀ k, ridx_main_v27 i k = ix2 k (i 1) := fun k => funext fun a => by
    match a with
    | ⟨0, _⟩ => rfl
    | ⟨1, _⟩ => rfl
  have bb : idx_main_v29 (idx_main_v30 i) = ix1 (i 1) := funext fun a => by
    match a with
    | ⟨0, _⟩ => rfl
  simp only [l1, r1, l2, r2, bb]
  rfl

/-- The reference's pre-activation of gate c is the specification's. -/
theorem gate_c (A : Args) (i : S4096x4096.Idx) : val_main_v43 (F := Ideal) A.x A.h A.wc A.uc A.bc i = Spec.sc A i := by
  rw [val_main_v43_apply, val_main_v40_apply, val_main_v38_apply, val_main_v39_apply, val_main_v42_apply, val_main_v41_apply]
  simp only [val_main_v0_apply]
  have l1 : ∀ k, lidx_main_v38 i k = ix2 (i 0) k := fun k => funext fun a => by
    match a with
    | ⟨0, _⟩ => rfl
    | ⟨1, _⟩ => rfl
  have r1 : ∀ k, ridx_main_v38 i k = ix2 k (i 1) := fun k => funext fun a => by
    match a with
    | ⟨0, _⟩ => rfl
    | ⟨1, _⟩ => rfl
  have l2 : ∀ k, idx_main_v0 (lidx_main_v39 i k) = ix2 k (i 0) := fun k => funext fun a => by
    match a with
    | ⟨0, _⟩ => rfl
    | ⟨1, _⟩ => rfl
  have r2 : ∀ k, ridx_main_v39 i k = ix2 k (i 1) := fun k => funext fun a => by
    match a with
    | ⟨0, _⟩ => rfl
    | ⟨1, _⟩ => rfl
  have bb : idx_main_v41 (idx_main_v42 i) = ix1 (i 1) := funext fun a => by
    match a with
    | ⟨0, _⟩ => rfl
  simp only [l1, r1, l2, r2, bb]
  rfl

/-- The third result: the new stabilizer state. -/
theorem ref_m (A : Args) : val_main_v18 (F := Ideal) A.x A.h A.m A.wi A.wf A.ui A.uf A.bi A.bf = Spec.outM A := by
  funext i
  simp only [val_main_v18_apply, val_main_v16_apply, val_main_v15_apply, val_main_v14_apply, val_main_v17_apply, val_main_v7_apply,
    gate_i, gate_f, Ideal.hostUnary_exp_def, Ideal.hostUnary_log_def, Ideal.addf_def, Ideal.maximumf_def, Cell.log_exp]
  rfl

/-- The second result: the new cell state. -/
theorem ref_c (A : Args) (hA : A.Real) :
    val_main_v47 (F := Ideal) A.x A.h A.c A.m A.wi A.wf A.wc A.ui A.uf A.uc A.bi A.bf A.bc = Spec.outC A := by
  funext i
  have hi : IsR (Spec.si A i) := isR_pre hA.x hA.h hA.wi hA.ui hA.bi i
  have hf : IsR (Spec.sf A i) := isR_pre hA.x hA.h hA.wf hA.uf hA.bf i
  have hm : IsR (A.m i) := hA.m i
  simp only [val_main_v47_apply, val_main_v45_apply, val_main_v46_apply, val_main_v25_apply, val_main_v24_apply, val_main_v23_apply, val_main_v22_apply, val_main_v21_apply, val_main_v20_apply, val_main_v19_apply, val_main_v18_apply, val_main_v16_apply, val_main_v15_apply, val_main_v14_apply, val_main_v17_apply, val_main_v7_apply, val_main_v44_apply,
    gate_i, gate_f, gate_c, Ideal.hostUnary_exp_def, Ideal.hostUnary_log_def, Ideal.hostUnary_tanh_def, Ideal.addf_def, Ideal.subf_def, Ideal.mulf_def, Ideal.maximumf_def, Ideal.hostDivf_def, Ideal.hostNegf_def, Ideal.negf_def, Ideal.ofBits_def, Cell.log_exp]
  rw [Cell.exp_add_sub_cancel hi hf hm]
  rfl

/-- The fourth result: the new normalizer state. -/
theorem ref_n (A : Args) (hA : A.Real) :
    val_main_v49 (F := Ideal) A.x A.h A.m A.n A.wi A.wf A.ui A.uf A.bi A.bf = Spec.outN A := by
  funext i
  have hi : IsR (Spec.si A i) := isR_pre hA.x hA.h hA.wi hA.ui hA.bi i
  have hf : IsR (Spec.sf A i) := isR_pre hA.x hA.h hA.wf hA.uf hA.bf i
  have hm : IsR (A.m i) := hA.m i
  simp only [val_main_v49_apply, val_main_v48_apply, val_main_v25_apply, val_main_v24_apply, val_main_v23_apply, val_main_v22_apply, val_main_v21_apply, val_main_v20_apply, val_main_v19_apply, val_main_v18_apply, val_main_v16_apply, val_main_v15_apply, val_main_v14_apply, val_main_v17_apply, val_main_v7_apply,
    gate_i, gate_f, Ideal.hostUnary_exp_def, Ideal.hostUnary_log_def, Ideal.hostUnary_tanh_def, Ideal.addf_def, Ideal.subf_def, Ideal.mulf_def, Ideal.maximumf_def, Ideal.hostDivf_def, Ideal.hostNegf_def, Ideal.negf_def, Ideal.ofBits_def, Cell.log_exp]
  rw [Cell.exp_add_sub_cancel hi hf hm]
  rfl

/-- The first result: the new hidden state. -/
theorem ref_h (A : Args) (hA : A.Real) :
    val_main_v51 (F := Ideal) A.x A.h A.c A.m A.n A.wi A.wf A.wo A.wc A.ui A.uf A.uo A.uc A.bi A.bf A.bo A.bc = Spec.outH A := by
  funext i
  have hi : IsR (Spec.si A i) := isR_pre hA.x hA.h hA.wi hA.ui hA.bi i
  have hf : IsR (Spec.sf A i) := isR_pre hA.x hA.h hA.wf hA.uf hA.bf i
  have hm : IsR (A.m i) := hA.m i
  simp only [val_main_v51_apply, val_main_v50_apply, val_main_v49_apply, val_main_v48_apply, val_main_v47_apply, val_main_v45_apply, val_main_v46_apply, val_main_v37_apply, val_main_v36_apply, val_main_v35_apply, val_main_v34_apply, val_main_v33_apply, val_main_v32_apply, val_main_cst_apply, val_main_cst_0_apply, val_main_v25_apply, val_main_v24_apply, val_main_v23_apply, val_main_v22_apply, val_main_v21_apply, val_main_v20_apply, val_main_v19_apply, val_main_v18_apply, val_main_v16_apply, val_main_v15_apply, val_main_v14_apply, val_main_v17_apply, val_main_v7_apply, val_main_v44_apply,
    gate_i, gate_f, gate_o, gate_c, Ideal.hostUnary_exp_def, Ideal.hostUnary_log_def, Ideal.hostUnary_tanh_def, Ideal.addf_def, Ideal.subf_def, Ideal.mulf_def, Ideal.maximumf_def, Ideal.hostDivf_def, Ideal.hostNegf_def, Ideal.negf_def, Ideal.ofBits_def, Cell.log_exp]
  rw [Cell.exp_add_sub_cancel hi hf hm, Cell.logistic_spelled]
  rfl

end Cert.ReferenceIdeal.RefValue

end
-- ==== Proof.Finite.lean ====
/-
  What the precondition says: every entry of every argument array is a real number.

  The precondition is the conjunction, over the seventeen arguments, of "all entries x satisfy |x| < +inf". On the
  extended reals |x| = max x (-x), and max x (-x) < +inf excludes both infinities, so x is a real number. A
  conjunction of one-bit words is 1 exactly when every word is 1, and an and-reduction of a whole array to one
  word is 1 only if every entry of the array is 1.
-/
import proofs.«147322_j14903536517286_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

variable [Cert.Pre_finite_inputs.Facts]
open Cert.Pre_finite_inputs.Facts

instance : Subsingleton S_.Idx := ⟨fun a b => funext fun d => d.elim0⟩

/-- max x (-x) < +inf leaves only the real numbers. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The check "all entries are finite" on a matrix gives a real number at every entry. -/
theorem real_of_all2 (x : FVec Ideal S4096x4096 .f32) (j : S_.Idx)
    (e : Host.reduce IntOp.andi (cmpf .olt (Host.absf x) (broadcastInDim S4096x4096 ![] bcast_S_S4096x4096 (constant S_ .f32 0x7F800000#32)))
      (constantI S_ 1 1#1) reducesTo_S4096x4096_S_d0_1 h_S_ j = 1#1) (i : S4096x4096.Idx) : ∃ r : ℝ, x i = (r : EReal) :=
  real_of_abs_lt (x i) (Host.reduce_andi_all _ _ _ _ j e i)

/-- The same on a vector. -/
theorem real_of_all1 (x : FVec Ideal S4096 .f32) (j : S_.Idx)
    (e : Host.reduce IntOp.andi (cmpf .olt (Host.absf x) (broadcastInDim S4096 ![] bcast_S_S4096 (constant S_ .f32 0x7F800000#32)))
      (constantI S_ 1 1#1) reducesTo_S4096_S_d0 h_S_ j = 1#1) (i : S4096.Idx) : ∃ r : ℝ, x i = (r : EReal) :=
  real_of_abs_lt (x i) (Host.reduce_andi_all _ _ _ _ j e i)

/-- The precondition, opened: all seventeen arrays have real entries. -/
theorem real_entries (a0 : FVec Ideal S4096x4096 .f32) (a1 : FVec Ideal S4096x4096 .f32) (a2 : FVec Ideal S4096x4096 .f32) (a3 : FVec Ideal S4096x4096 .f32) (a4 : FVec Ideal S4096x4096 .f32) (a5 : FVec Ideal S4096x4096 .f32) (a6 : FVec Ideal S4096x4096 .f32) (a7 : FVec Ideal S4096x4096 .f32) (a8 : FVec Ideal S4096x4096 .f32) (a9 : FVec Ideal S4096x4096 .f32) (a10 : FVec Ideal S4096x4096 .f32) (a11 : FVec Ideal S4096x4096 .f32) (a12 : FVec Ideal S4096x4096 .f32) (a13 : FVec Ideal S4096 .f32) (a14 : FVec Ideal S4096 .f32) (a15 : FVec Ideal S4096 .f32) (a16 : FVec Ideal S4096 .f32)
    (h : fn (F := Ideal) a0 a1 a2 a3 a4 a5 a6 a7 a8 a9 a10 a11 a12 a13 a14 a15 a16 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal)) := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩ := h0
  exact ⟨fun i => real_of_all2 a0 _ e0 i,
    fun i => real_of_all2 a1 _ e1 i,
    fun i => real_of_all2 a2 _ e2 i,
    fun i => real_of_all2 a3 _ e3 i,
    fun i => real_of_all2 a4 _ e4 i,
    fun i => real_of_all2 a5 _ e5 i,
    fun i => real_of_all2 a6 _ e6 i,
    fun i => real_of_all2 a7 _ e7 i,
    fun i => real_of_all2 a8 _ e8 i,
    fun i => real_of_all2 a9 _ e9 i,
    fun i => real_of_all2 a10 _ e10 i,
    fun i => real_of_all2 a11 _ e11 i,
    fun i => real_of_all2 a12 _ e12 i,
    fun i => real_of_all1 a13 _ e13 i,
    fun i => real_of_all1 a14 _ e14 i,
    fun i => real_of_all1 a15 _ e15 i,
    fun i => real_of_all1 a16 _ e16 i⟩

end Cert.Finite

end
-- ==== Proof.lean ====
/-
  A stabilized LSTM cell step as one fused kernel, against its plain reference: the claims and their assembly.

  The kernel fuses each gate's two matrix products into one contraction over 8192 indices (the batch x beside the
  transposed previous hidden state, the input weights above the recurrent weights), cuts that contraction into sixteen
  steps of 512 along the last axis of a (4, 16, 16) grid, and accumulates the four gates' products in its four output blocks;
  at the last step of a run it adds the bias rows and applies the cell's formulas, overwriting the four blocks with the new
  hidden state, cell state, stabilizer state and normalizer state. The reference computes the same four arrays from eight
  separate products, going through exp and log where the kernel uses the pre-activations directly.

  With exact arithmetic on the extended reals:
    * a sum may be regrouped freely, so the sixteen block products of a run are the contraction over all 8192 fused indices,
      and that is the sum of the two original contractions (Sums, Glue, Accum, Final);
    * log (exp s) = s for every s, and 1 / (1 + exp (-s)) is the logistic function (Cell);
    * exp (s_f + m' - m') = exp s_f because the new stabilizer state m' is a real number, which is where the precondition
      (every argument entry is finite, hence real: Finite) is used (Cell, RefValue).
  Both programs therefore end with the four arrays of Spec. The kernel's idealization changed nothing in its text, so the
  preservation claim is the true proposition; the three frame claims are the generated frames (the reference's: its
  generated run, with the results dropped).
-/
import proofs.«147322_j14903536517286_2_alg».proof.Defs
import proofs.«147322_j14903536517286_2_alg».proof.Proof.Gen.Kernel
import proofs.«147322_j14903536517286_2_alg».proof.Proof.Gen.Kernel.Frame
import proofs.«147322_j14903536517286_2_alg».proof.Proof.Gen.KernelIdeal
import proofs.«147322_j14903536517286_2_alg».proof.Proof.Gen.KernelIdeal.Frame
import proofs.«147322_j14903536517286_2_alg».proof.Proof.Gen.KernelIdeal.Value
import proofs.«147322_j14903536517286_2_alg».proof.Proof.Gen.ReferenceIdeal
import proofs.«147322_j14903536517286_2_alg».proof.Proof.Gen.ReferenceIdeal.Run
import proofs.«147322_j14903536517286_2_alg».proof.Proof.Gen.ReferenceIdeal.Read
import proofs.«147322_j14903536517286_2_alg».proof.Proof.Gen.Pre_finite_inputs
import proofs.«147322_j14903536517286_2_alg».proof.Proof.Final
import proofs.«147322_j14903536517286_2_alg».proof.Proof.RefValue
import proofs.«147322_j14903536517286_2_alg».proof.Proof.Finite
import Idealize.ShloMosaic.Adequacy
import Idealize.ShloMosaic.Init

noncomputable section

namespace Cert.Proof

open Idealize.ShloMosaic Idealize.SL.Sem Cert.LibMoments

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Under the precondition every entry of the kernel's seventeen arguments is a real number. -/
theorem args_real (m : (ℓ : Loc Cert.KernelIdeal.nD Cert.KernelIdeal.τ Cert.KernelIdeal.sig) → Buf (Elt Ideal) ℓ) (hpre : Cert.Pre_KernelIdeal m)
    (c : Dev Cert.KernelIdeal.nD) : (Cert.KernelIdeal.Final.args m c).Real := by
  have hr := Cert.Finite.real_entries _ _ _ _ _ _ _ _ _ _ _ _ _ _ _ _ _ (hpre c)
  exact ⟨hr.1, hr.2.1, hr.2.2.1, hr.2.2.2.1, hr.2.2.2.2.1, hr.2.2.2.2.2.1, hr.2.2.2.2.2.2.1, hr.2.2.2.2.2.2.2.1, hr.2.2.2.2.2.2.2.2.1, hr.2.2.2.2.2.2.2.2.2.1, hr.2.2.2.2.2.2.2.2.2.2.1, hr.2.2.2.2.2.2.2.2.2.2.2.1, hr.2.2.2.2.2.2.2.2.2.2.2.2.1, hr.2.2.2.2.2.2.2.2.2.2.2.2.2.1, hr.2.2.2.2.2.2.2.2.2.2.2.2.2.2.1, hr.2.2.2.2.2.2.2.2.2.2.2.2.2.2.2.1, hr.2.2.2.2.2.2.2.2.2.2.2.2.2.2.2.2⟩

/-- At the exact-arithmetic instance, from memories that agree on the arguments, both programs end with the same four
    arrays: the specification's new hidden, cell, stabilizer and normalizer states of the arguments. -/
theorem algebraic : Cert.algebraic_KernelIdeal_ReferenceIdeal := by
  intro m ρ m' ρ' hpre hagree
  refine ⟨fun c => Cert.Spec.outH (Cert.KernelIdeal.Final.args m c), fun c => Cert.Spec.outC (Cert.KernelIdeal.Final.args m c),
    fun c => Cert.Spec.outM (Cert.KernelIdeal.Final.args m c), fun c => Cert.Spec.outN (Cert.KernelIdeal.Final.args m c),
    Cert.KernelIdeal.Final.run m ρ, ?_⟩
  refine (θ_run Cert.ReferenceIdeal.defs _ _).mono (fun _ h c => ?_) (Cert.ReferenceIdeal.Value.run (F := Ideal) m' ρ')
  have hR := args_real m hpre c
  refine ⟨(h c).1.trans ?_, (h c).2.1.trans ?_, (h c).2.2.1.trans ?_, (h c).2.2.2.1.trans ?_, (h c).2.2.2.2⟩
  · rw [Cert.ReferenceIdeal.Read.val_main_v51_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact Cert.ReferenceIdeal.RefValue.ref_h (Cert.KernelIdeal.Final.args m c) hR
  · rw [Cert.ReferenceIdeal.Read.val_main_v47_eq, (hagree c).1, (hagree c).2.1, (hagree c).2.2.1, (hagree c).2.2.2.1, (hagree c).2.2.2.2.2.1, (hagree c).2.2.2.2.2.2.1, (hagree c).2.2.2.2.2.2.2.2.1, (hagree c).2.2.2.2.2.2.2.2.2.1, (hagree c).2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.2]
    exact Cert.ReferenceIdeal.RefValue.ref_c (Cert.KernelIdeal.Final.args m c) hR
  · rw [Cert.ReferenceIdeal.Read.val_main_v18_eq, (hagree c).1, (hagree c).2.1, (hagree c).2.2.2.1, (hagree c).2.2.2.2.2.1, (hagree c).2.2.2.2.2.2.1, (hagree c).2.2.2.2.2.2.2.2.2.1, (hagree c).2.2.2.2.2.2.2.2.2.2.1, (hagree c).2.2.2.2.2.2.2.2.2.2.2.2.2.1, (hagree c).2.2.2.2.2.2.2.2.2.2.2.2.2.2.1]
    exact Cert.ReferenceIdeal.RefValue.ref_m (Cert.KernelIdeal.Final.args m c)
  · rw [Cert.ReferenceIdeal.Read.val_main_v49_eq, (hagree c).1, (hagree c).2.1, (hagree c).2.2.2.1, (hagree c).2.2.2.2.1, (hagree c).2.2.2.2.2.1, (hagree c).2.2.2.2.2.2.1, (hagree c).2.2.2.2.2.2.2.2.2.1, (hagree c).2.2.2.2.2.2.2.2.2.2.1, (hagree c).2.2.2.2.2.2.2.2.2.2.2.2.2.1, (hagree c).2.2.2.2.2.2.2.2.2.2.2.2.2.2.1]
    exact Cert.ReferenceIdeal.RefValue.ref_n (Cert.KernelIdeal.Final.args m c) hR

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
